-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S1 .f32) (main_arg10 : FVec F S128x10 .f32) (main_arg11 : FVec F S10 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S128x1 .f32) (main_arg9 : FVec F S1 .f32) (main_arg10 : FVec F S128x10 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_v33

def fn {F : FTy → Type} [FloatOps F] (main_arg0 : FVec F S10000x128 .f32) (main_arg1 : IVec S2x640000 32) (main_arg2 : IVec S10000 32) (main_arg3 : FVec F S128x128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) (main_arg10 : FVec F S128x10 .f32) (main_arg11 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S1000x128 : Shape := ⟨2, ![1000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5120x128 : Shape := ⟨2, ![5120, 128]⟩
abbrev S5120 : Shape := ⟨1, ![5120]⟩
abbrev S16x128 : Shape := ⟨2, ![16, 128]⟩
abbrev S10000x1 : Shape := ⟨2, ![10000, 1]⟩
abbrev S16 : Shape := ⟨1, ![16]⟩
abbrev S16x1 : Shape := ⟨2, ![16, 1]⟩
abbrev S16x10 : Shape := ⟨2, ![16, 10]⟩
abbrev S1x10 : Shape := ⟨2, ![1, 10]⟩

abbrev nBuf : Space → Nat
  | .hbm => 75
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x10, .f32⟩
  | .hbm, ⟨11, _⟩ => ⟨S10, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S10000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .f32⟩
  | .hbm, ⟨27, _⟩ => ⟨S10000x128, .f32⟩
  | .hbm, ⟨28, _⟩ => ⟨S640000x1, .i32⟩
  | .hbm, ⟨29, _⟩ => ⟨S10000x128, .f32⟩
  | .hbm, ⟨30, _⟩ => ⟨S10000x128, .f32⟩
  | .hbm, ⟨31, _⟩ => ⟨S10000x128, .bf16⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .bf16⟩
  | .hbm, ⟨50, _⟩ => ⟨S128x128, .f32⟩
  | .hbm, ⟨51, _⟩ => ⟨S128x128, .f32⟩
  | .hbm, ⟨52, _⟩ => ⟨S128, .f32⟩
  | .hbm, ⟨53, _⟩ => ⟨S640000, .f32⟩
  | .hbm, ⟨54, _⟩ => ⟨S640000x1, .f32⟩
  | .hbm, ⟨55, _⟩ => ⟨S_, .f32⟩
  | .hbm, ⟨56, _⟩ => ⟨S16x128, .f32⟩
  | .hbm, ⟨57, _⟩ => ⟨S10000x1, .i32⟩
  | .hbm, ⟨58, _⟩ => ⟨S16x128, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S16, .f32⟩
  | .hbm, ⟨63, _⟩ => ⟨S10000x1, .i32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16x1, .f32⟩
  | .hbm, ⟨69, _⟩ => ⟨S16x128, .f32⟩
  | .hbm, ⟨70, _⟩ => ⟨S16x128, .f32⟩
  | .hbm, ⟨71, _⟩ => ⟨S16x10, .f32⟩
  | .hbm, ⟨72, _⟩ => ⟨S1x10, .f32⟩
  | .hbm, ⟨73, _⟩ => ⟨S16x10, .f32⟩
  | .hbm, ⟨74, _⟩ => ⟨S16x10, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S128x128, .f32⟩
  | .local _ .vmem, ⟨10, _⟩ => ⟨S128, .f32⟩
  | .local _ .vmem, ⟨11, _⟩ => ⟨S1000x128, .f32⟩
  | .local _ .vmem, ⟨12, _⟩ => ⟨S1000x128, .f32⟩
  | .local _ .vmem, ⟨13, _⟩ => ⟨S5120x128, .bf16⟩
  | .local _ .vmem, ⟨14, _⟩ => ⟨S5120x128, .bf16⟩
  | .local _ .vmem, ⟨15, _⟩ => ⟨S5120x128, .bf16⟩
  | .local _ .vmem, ⟨16, _⟩ => ⟨S5120x128, .bf16⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S1, .f32⟩
  | .local _ .vmem, ⟨22, _⟩ => ⟨S5120, .f32⟩
  | .local _ .vmem, ⟨23, _⟩ => ⟨S5120, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S5120x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5120x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5120 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  shapeCasts_S1000x128_S1000x128 : S1000x128.ShapeCasts S1000x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  slices_S256x128_S128x128_0_0 : S256x128.Slices ![0, 0] S128x128
  slices_S256x128_S128x128_128_0 : S256x128.Slices ![128, 0] S128x128
  shapeCasts_S128x1_S128 : S128x1.ShapeCasts S128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  shapeCasts_S128x128_S128x128 : S128x128.ShapeCasts S128x128
  broadcasts_S1x128_S5120x128 : S1x128.Broadcasts S5120x128
  shapeCasts_S128_S128 : S128.ShapeCasts S128
  reduces_S5120x128_S5120 : S5120x128.Reduces [1] S5120
  inb_S1_S1_0 : ∀ a, (![0] : Fin 1 → Nat) a + S1.size a ≤ S1.size a
  h_S1 : 0 < S1.numel
  broadcasts_S1_S5120 : S1.Broadcasts S5120
  inb_S5120_S5120_0 : ∀ a, (![0] : Fin 1 → Nat) a + S5120.size a ≤ S5120.size a
  h_S5120 : 0 < S5120.numel
  shapeCasts_S640000_S640000x1 : S640000.ShapeCasts S640000x1
  bcast_S_S16x128 : S_.BroadcastsInDim S16x128 (![] : Fin 0 → Fin S16x128.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S1000x128_S128x128_S1000x128_1_0_0_1_n_n_wf : DotDims.WF S1000x128 S128x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S5120x128_S128x128_S5120x128_1_0_0_1_n_n_wf : DotDims.WF S5120x128 S128x128 S5120x128 [1] [0] [0] [1] [] []
  scatter_S16x128_S10000x1_S10000x128_1_0_0_1_wf : ScatterDims.WF S16x128 S10000x1 S10000x128 [1] [0] [0] 1
  scatter_S16_S10000x1_S10000_n_0_0_1_wf : ScatterDims.WF S16 S10000x1 S10000 [] [0] [0] 1
  dot_S16x128_S128x10_S16x10_1_0_0_1_n_n_wf : DotDims.WF S16x128 S128x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5120x128.size a ≤ S640000x128.size a
  hwx2_0 : ∀ i : grid2.Coords, EltTy.bits .bf16 = 32 ∨ (Rect.block (s := S640000x128) S5120x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .bf16 = 32 ∨ (Rect.block (s := S640000x128) S5120x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5120.size a ≤ S640000.size a
  hwx2_7 : ∀ i : grid2.Coords, EltTy.bits .f32 = 32 ∨ (Rect.block (s := S640000) S5120.size (cc2_transform_7 i) (hinb2_7 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5120x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v34) S5120.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S16x128 : Shape := ⟨2, ![16, 128]⟩
abbrev S10000x1 : Shape := ⟨2, ![10000, 1]⟩
abbrev S16 : Shape := ⟨1, ![16]⟩
abbrev S16x1 : Shape := ⟨2, ![16, 1]⟩
abbrev S640000x256 : Shape := ⟨2, ![640000, 256]⟩
abbrev S1x1 : Shape := ⟨2, ![1, 1]⟩
abbrev S16x10 : Shape := ⟨2, ![16, 10]⟩
abbrev S1x10 : Shape := ⟨2, ![1, 10]⟩

abbrev nBuf : Space → Nat
  | .hbm => 88
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x10, .f32⟩
  | .hbm, ⟨11, _⟩ => ⟨S10, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S10000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .f32⟩
  | .hbm, ⟨27, _⟩ => ⟨S10000x128, .f32⟩
  | .hbm, ⟨28, _⟩ => ⟨S640000x1, .i32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S16x128, .f32⟩
  | .hbm, ⟨40, _⟩ => ⟨S10000x1, .i32⟩
  | .hbm, ⟨41, _⟩ => ⟨S16x128, .f32⟩
  | .hbm, ⟨42, _⟩ => ⟨S_, .f32⟩
  | .hbm, ⟨43, _⟩ => ⟨S10000, .f32⟩
  | .hbm, ⟨44, _⟩ => ⟨S_, .f32⟩
  | .hbm, ⟨45, _⟩ => ⟨S16, .f32⟩
  | .hbm, ⟨46, _⟩ => ⟨S10000x1, .i32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16x1, .f32⟩
  | .hbm, ⟨52, _⟩ => ⟨S16x128, .f32⟩
  | .hbm, ⟨53, _⟩ => ⟨S16x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S640000x256, .f32⟩
  | .hbm, ⟨73, _⟩ => ⟨S640000x128, .f32⟩
  | .hbm, ⟨74, _⟩ => ⟨S1x128, .f32⟩
  | .hbm, ⟨75, _⟩ => ⟨S640000x128, .f32⟩
  | .hbm, ⟨76, _⟩ => ⟨S640000x128, .f32⟩
  | .hbm, ⟨77, _⟩ => ⟨S_, .f32⟩
  | .hbm, ⟨78, _⟩ => ⟨S640000x128, .f32⟩
  | .hbm, ⟨79, _⟩ => ⟨S640000x128, .f32⟩
  | .hbm, ⟨80, _⟩ => ⟨S640000x1, .f32⟩
  | .hbm, ⟨81, _⟩ => ⟨S1x1, .f32⟩
  | .hbm, ⟨82, _⟩ => ⟨S640000x1, .f32⟩
  | .hbm, ⟨83, _⟩ => ⟨S640000x1, .f32⟩
  | .hbm, ⟨84, _⟩ => ⟨S16x10, .f32⟩
  | .hbm, ⟨85, _⟩ => ⟨S1x10, .f32⟩
  | .hbm, ⟨86, _⟩ => ⟨S16x10, .f32⟩
  | .hbm, ⟨87, _⟩ => ⟨S16x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S16x128 : S_.BroadcastsInDim S16x128 (![] : Fin 0 → Fin S16x128.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S640000x128_S640000x128_S640000x256_d1 : Shape.Concatenates [S640000x128, S640000x128] S640000x256 1
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S16x128_S10000x1_S10000x128_1_0_0_1_wf : ScatterDims.WF S16x128 S10000x1 S10000x128 [1] [0] [0] 1
  scatter_S16_S10000x1_S10000_n_0_0_1_wf : ScatterDims.WF S16 S10000x1 S10000 [] [0] [0] 1
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []
  dot_S16x128_S128x10_S16x10_1_0_0_1_n_n_wf : DotDims.WF S16x128 S128x10 S16x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.KernelRun.lean ====
/-
  The idealized kernel's run with its two results named.

  The program is three grid regions among four stretches of array operations. Its run leaves every buffer at a
  fold through those seven segments from the launch memory: a stretch applies its operations, a region replaces
  its output array by what its grid points wrote back. This module states the run once more with the two result
  buffers read at the end of that fold, beside the twelve arguments as launched; what the fold holds there is
  worked out in KernelValue.lean.
-/
import proofs.«159066_j47141561041135_2_alg».proof.Proof.KernelIdealFrameP

set_option maxRecDepth 16384

noncomputable section

namespace Cert.KernelIdeal.Results

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with each result buffer at the end of
    the fold through the segments and each argument as launched. -/
theorem run_results : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Results

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibEdgeRows.lean ====
/-
  A message-passing layer and an edge scorer over the extended reals, one row at a time.

  Every array of the network is a matrix whose row `r` belongs to one node or one edge, and every layer treats
  a row alone:

    * a node's new feature row is `j ↦ max (g j + (∑ k, h k · w[k, j]) + b j) z`, from its aggregated row `g`
      and its own row `h` (`nodeRow`);
    * an edge's score is `(∑ k, max ((∑ j, s j · wa[j, k]) + (∑ j, d j · wb[j, k]) + b₁ k) z · w₂ k) + b₂`, from the
      rows `s`, `d` of its two end nodes (`edgeSplit`), or — the same number — a two-layer perceptron applied to
      the two rows set side by side, with the two weight matrices stacked (`edgeJoined`).

  The one law is that a sum over the `A + B` entries of a joined row is the sum over the first `A` plus the sum
  over the last `B` (`sum_join`); sums of extended reals may be split like that whatever their terms are, so
  nothing is asked of the entries (infinities are welcome).

  `rows1`, `rows2` and `scal2` are the whole arrays whose row `r` (entry `r`) is a function of row `r` of one or
  two operands; an array is one of them as soon as each row is (`eq_rows1` …), and a tile of consecutive rows of
  the operands gives the matching tile of the result (`rows1_tile` …), which is all a row-tiled evaluation needs.
-/
import proofs.«159066_j47141561041135_2_alg».proof.Proof.LibRowLayers

noncomputable section

namespace Cert.EdgeNet

open Idealize.ShloMosaic Idealize.ShloMosaic.ValueIdx Cert.RowLayers

/-! ## The row functions -/

/-- A row times a weight matrix: `j ↦ ∑ k, h k · w[k, j]`. -/
def project {K J : ℕ} (w : (⟨2, ![K, J]⟩ : Shape).Idx → EReal) (h : Fin K → EReal) : Fin J → EReal :=
  fun j => ∑ k : Fin K, h k * w (ix2 k j)

/-- A node's new row from its aggregated row `g` and its own row `h`. -/
def nodeRow {K J : ℕ} (w : (⟨2, ![K, J]⟩ : Shape).Idx → EReal) (b : Fin J → EReal) (z : EReal)
    (g : Fin J → EReal) (h : Fin K → EReal) : Fin J → EReal :=
  relu z (fun j => g j + project w h j + b j)

/-- An edge's score from the rows of its two end nodes, each through its own weight matrix. -/
def edgeSplit {A B J : ℕ} (wa : (⟨2, ![A, J]⟩ : Shape).Idx → EReal) (wb : (⟨2, ![B, J]⟩ : Shape).Idx → EReal)
    (b₁ : Fin J → EReal) (z : EReal) (w₂ : Fin J → EReal) (b₂ : EReal) (s : Fin A → EReal) (d : Fin B → EReal) : EReal :=
  (∑ k : Fin J, relu z (fun j => project wa s j + project wb d j + b₁ j) k * w₂ k) + b₂

/-- The same score as a two-layer perceptron of the two rows set side by side. -/
def edgeJoined {A B C J : ℕ} (hC : C = A + B) (w : (⟨2, ![C, J]⟩ : Shape).Idx → EReal) (b₁ : Fin J → EReal) (z : EReal)
    (w₂ : (⟨2, ![J, 1]⟩ : Shape).Idx → EReal) (b₂ : Fin 1 → EReal) (s : Fin A → EReal) (d : Fin B → EReal) : Fin 1 → EReal :=
  dense (relu z (dense (join hC s d) w b₁)) w₂ b₂

/-! ## The law -/

/-- A sum over a joined row splits at the seam. -/
theorem sum_join {A B C : ℕ} (hC : C = A + B) (s : Fin A → EReal) (d : Fin B → EReal) (g : Fin C → EReal) :
    (∑ k : Fin C, join hC s d k * g k)
      = (∑ k : Fin A, s k * g ⟨k.val, by have := k.isLt; omega⟩) + ∑ k : Fin B, d k * g ⟨A + k.val, by have := k.isLt; omega⟩ := by
  subst hC
  rw [Fin.sum_univ_add]
  refine congrArg₂ (· + ·) (Finset.sum_congr rfl fun k _ => ?_) (Finset.sum_congr rfl fun k _ => ?_)
  · have hk : (Fin.castAdd B k).val < A := k.isLt
    have e : join rfl s d (Fin.castAdd B k) = s k := by
      unfold join; rw [dif_pos hk]
      exact congrArg s (Fin.ext rfl)
    rw [e]; rfl
  · have hk : ¬ (Fin.natAdd A k).val < A := by show ¬ A + k.val < A; omega
    have e : join rfl s d (Fin.natAdd A k) = d k := by
      unfold join; rw [dif_neg hk]
      exact congrArg d (Fin.ext (by show A + k.val - A = k.val; omega))
    rw [e]; rfl

/-- The perceptron on the joined row is the split score, when `wa` holds the first `A` rows of `w`, `wb` the
    next `B`, and `w₂v` is the one column of `w₂`. -/
theorem edgeJoined_eq_split {A B C J : ℕ} (hC : C = A + B) (w : (⟨2, ![C, J]⟩ : Shape).Idx → EReal)
    (wa : (⟨2, ![A, J]⟩ : Shape).Idx → EReal) (wb : (⟨2, ![B, J]⟩ : Shape).Idx → EReal)
    (hwa : ∀ (k : Fin A) (j : Fin J), wa (ix2 k j) = w (ix2 ⟨k.val, by have := k.isLt; omega⟩ j))
    (hwb : ∀ (k : Fin B) (j : Fin J), wb (ix2 k j) = w (ix2 ⟨A + k.val, by have := k.isLt; omega⟩ j))
    (b₁ : Fin J → EReal) (z : EReal) (w₂ : (⟨2, ![J, 1]⟩ : Shape).Idx → EReal) (b₂ : Fin 1 → EReal)
    (w₂v : Fin J → EReal) (hw₂ : ∀ k, w₂v k = w₂ (ix2 k 0)) (s : Fin A → EReal) (d : Fin B → EReal) (u : Fin 1) :
    edgeJoined hC w b₁ z w₂ b₂ s d u = edgeSplit wa wb b₁ z w₂v (b₂ u) s d := by
  obtain rfl : u = 0 := Subsingleton.elim _ _
  unfold edgeJoined edgeSplit dense
  refine congrArg (· + b₂ 0) (Finset.sum_congr rfl fun k _ => ?_)
  rw [hw₂ k]
  refine congrArg (fun t => max t z * w₂ (ix2 k 0)) ?_
  show (∑ j : Fin C, join hC s d j * w (ix2 j k)) + b₁ k = project wa s k + project wb d k + b₁ k
  rw [sum_join hC s d (fun j => w (ix2 j k))]
  unfold project
  simp only [hwa, hwb]

/-! ## Whole arrays, row by row -/

/-- The `[a, J]` array whose row `r` is `f` of row `r` of `A`. -/
def rows1 {a K J : ℕ} (f : (Fin K → EReal) → Fin J → EReal) (A : (⟨2, ![a, K]⟩ : Shape).Idx → EReal) :
    (⟨2, ![a, J]⟩ : Shape).Idx → EReal :=
  fun i => f (rowOf A (i 0)) (i 1)

/-- The `[a, J]` array whose row `r` is `f` of rows `r` of `A` and of `B`. -/
def rows2 {a K L J : ℕ} (f : (Fin K → EReal) → (Fin L → EReal) → Fin J → EReal)
    (A : (⟨2, ![a, K]⟩ : Shape).Idx → EReal) (B : (⟨2, ![a, L]⟩ : Shape).Idx → EReal) : (⟨2, ![a, J]⟩ : Shape).Idx → EReal :=
  fun i => f (rowOf A (i 0)) (rowOf B (i 0)) (i 1)

/-- The `[a]` vector whose entry `r` is `f` of rows `r` of `A` and of `B`. -/
def scal2 {a K L : ℕ} (f : (Fin K → EReal) → (Fin L → EReal) → EReal)
    (A : (⟨2, ![a, K]⟩ : Shape).Idx → EReal) (B : (⟨2, ![a, L]⟩ : Shape).Idx → EReal) : (⟨1, ![a]⟩ : Shape).Idx → EReal :=
  fun i => f (rowOf A (i 0)) (rowOf B (i 0))

theorem eq_rows1 {a K J : ℕ} (f : (Fin K → EReal) → Fin J → EReal) (A : (⟨2, ![a, K]⟩ : Shape).Idx → EReal)
    (X : (⟨2, ![a, J]⟩ : Shape).Idx → EReal) (h : ∀ p : Fin a, rowOf X p = f (rowOf A p)) : X = rows1 f A :=
  funext fun i => (apply_eq_rowOf X i).trans (congrFun (h (i 0)) (i 1))

theorem eq_rows2 {a K L J : ℕ} (f : (Fin K → EReal) → (Fin L → EReal) → Fin J → EReal)
    (A : (⟨2, ![a, K]⟩ : Shape).Idx → EReal) (B : (⟨2, ![a, L]⟩ : Shape).Idx → EReal)
    (X : (⟨2, ![a, J]⟩ : Shape).Idx → EReal) (h : ∀ p : Fin a, rowOf X p = f (rowOf A p) (rowOf B p)) : X = rows2 f A B :=
  funext fun i => (apply_eq_rowOf X i).trans (congrFun (h (i 0)) (i 1))

theorem eq_scal2 {a K L : ℕ} (f : (Fin K → EReal) → (Fin L → EReal) → EReal)
    (A : (⟨2, ![a, K]⟩ : Shape).Idx → EReal) (B : (⟨2, ![a, L]⟩ : Shape).Idx → EReal)
    (X : (⟨1, ![a]⟩ : Shape).Idx → EReal) (h : ∀ p : Fin a, X (ix1 p) = f (rowOf A p) (rowOf B p)) : X = scal2 f A B :=
  funext fun i => (congrArg X (eq_ix1 i)).trans (h (i 0))

/-! ## A tile of rows -/

/-- `A₀` holds the rows of `A` from row `r₀` on. -/
def TileOf {a₀ a K : ℕ} (r₀ : ℕ) (A₀ : (⟨2, ![a₀, K]⟩ : Shape).Idx → EReal) (A : (⟨2, ![a, K]⟩ : Shape).Idx → EReal) : Prop :=
  ∀ (y : (⟨2, ![a₀, K]⟩ : Shape).Idx) (x : (⟨2, ![a, K]⟩ : Shape).Idx),
    (x 0).val = r₀ + (y 0).val → (x 1).val = (y 1).val → A₀ y = A x

theorem TileOf.row {a₀ a K : ℕ} {r₀ : ℕ} {A₀ : (⟨2, ![a₀, K]⟩ : Shape).Idx → EReal} {A : (⟨2, ![a, K]⟩ : Shape).Idx → EReal}
    (h : TileOf r₀ A₀ A) (p : Fin a₀) (r : Fin a) (hr : r.val = r₀ + p.val) : rowOf A₀ p = rowOf A r :=
  funext fun k => h (ix2 p k) (ix2 r k) hr rfl

theorem rows1_tile {a₀ a K J : ℕ} (f : (Fin K → EReal) → Fin J → EReal) {r₀ : ℕ}
    {A₀ : (⟨2, ![a₀, K]⟩ : Shape).Idx → EReal} {A : (⟨2, ![a, K]⟩ : Shape).Idx → EReal} (hA : TileOf r₀ A₀ A)
    (j : (⟨2, ![a₀, J]⟩ : Shape).Idx) (i : (⟨2, ![a, J]⟩ : Shape).Idx)
    (hi0 : (i 0).val = r₀ + (j 0).val) (hi1 : (i 1).val = (j 1).val) : rows1 f A₀ j = rows1 f A i := by
  have hcol : (j 1 : Fin J) = i 1 := Fin.ext hi1.symm
  show f (rowOf A₀ (j 0)) (j 1) = f (rowOf A (i 0)) (i 1)
  rw [hA.row (j 0) (i 0) hi0, hcol]

theorem rows2_tile {a₀ a K L J : ℕ} (f : (Fin K → EReal) → (Fin L → EReal) → Fin J → EReal) {r₀ : ℕ}
    {A₀ : (⟨2, ![a₀, K]⟩ : Shape).Idx → EReal} {A : (⟨2, ![a, K]⟩ : Shape).Idx → EReal} (hA : TileOf r₀ A₀ A)
    {B₀ : (⟨2, ![a₀, L]⟩ : Shape).Idx → EReal} {B : (⟨2, ![a, L]⟩ : Shape).Idx → EReal} (hB : TileOf r₀ B₀ B)
    (j : (⟨2, ![a₀, J]⟩ : Shape).Idx) (i : (⟨2, ![a, J]⟩ : Shape).Idx)
    (hi0 : (i 0).val = r₀ + (j 0).val) (hi1 : (i 1).val = (j 1).val) : rows2 f A₀ B₀ j = rows2 f A B i := by
  have hcol : (j 1 : Fin J) = i 1 := Fin.ext hi1.symm
  show f (rowOf A₀ (j 0)) (rowOf B₀ (j 0)) (j 1) = f (rowOf A (i 0)) (rowOf B (i 0)) (i 1)
  rw [hA.row (j 0) (i 0) hi0, hB.row (j 0) (i 0) hi0, hcol]

theorem scal2_tile {a₀ a K L : ℕ} (f : (Fin K → EReal) → (Fin L → EReal) → EReal) {r₀ : ℕ}
    {A₀ : (⟨2, ![a₀, K]⟩ : Shape).Idx → EReal} {A : (⟨2, ![a, K]⟩ : Shape).Idx → EReal} (hA : TileOf r₀ A₀ A)
    {B₀ : (⟨2, ![a₀, L]⟩ : Shape).Idx → EReal} {B : (⟨2, ![a, L]⟩ : Shape).Idx → EReal} (hB : TileOf r₀ B₀ B)
    (j : (⟨1, ![a₀]⟩ : Shape).Idx) (i : (⟨1, ![a]⟩ : Shape).Idx)
    (hi0 : (i 0).val = r₀ + (j 0).val) : scal2 f A₀ B₀ j = scal2 f A B i := by
  show f (rowOf A₀ (j 0)) (rowOf B₀ (j 0)) = f (rowOf A (i 0)) (rowOf B (i 0))
  rw [hA.row (j 0) (i 0) hi0, hB.row (j 0) (i 0) hi0]

end Cert.EdgeNet

end
-- ==== Proof.DeviceRows.lean ====
/-
  The three grid bodies, read row by row over the extended reals.

  Each body loads a block of rows of its operands and stores one block of results. Read at the extended reals
  (a change of float format is the identity, a matrix product into a zero accumulator is the plain sum over the
  contracted position, a lane reduction from zero is the plain sum over the lanes), what is stored is

    * body 0: every row `h` of the block sent to `h · W`;
    * body 1: every pair of rows (aggregated `g`, own `h`) sent to `max (g + h · W + b) 0`;
    * body 2: every pair of rows (`s`, `d`) sent to the score `(∑ k, max (s · Wa + d · Wb + b₁) 0 · w₂ k) + b₂`.

  These are `rows1 project`, `rows2 nodeRow` and `scal2 edgeSplit` of LibEdgeRows.lean on the block.
-/
import proofs.«159066_j47141561041135_2_alg».proof.Proof.Gen.KernelIdeal.Skeleton
import proofs.«159066_j47141561041135_2_alg».proof.Proof.LibEdgeRows

noncomputable section

namespace Cert.KernelIdeal.DeviceRows

open Idealize.ShloMosaic Idealize.ShloMosaic.ValueIdx Cert.RowLayers Cert.EdgeNet Cert.KernelIdeal Cert.KernelIdeal.Gen

/-- The zero threshold of the rectifiers, kept as the word the programs print. -/
abbrev z0 : EReal := Ideal.ofBits .f32 0x00000000#32

/-! ## The printed products are "rows times columns" -/

theorem rtc_node : RowsTimesCols dot_S1000x128_S128x128_S1000x128_1_0_0_1_n_n where
  rank := rfl
  size := rfl
  lhs0 := fun j q => by
    unfold DotDims.lhsIdx
    rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
    rfl
  lhs1 := fun j q => dot_S1000x128_S128x128_S1000x128_1_0_0_1_n_n.lhsIdx_val_of_single rfl j q
  rhs0 := fun j q => dot_S1000x128_S128x128_S1000x128_1_0_0_1_n_n.rhsIdx_val_of_single rfl j q
  rhs1 := fun j q => by
    unfold DotDims.rhsIdx
    rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
    rfl

theorem rtc_edge : RowsTimesCols dot_S5120x128_S128x128_S5120x128_1_0_0_1_n_n where
  rank := rfl
  size := rfl
  lhs0 := fun j q => by
    unfold DotDims.lhsIdx
    rw [dif_neg (show ¬(0 : Fin S5120x128.rank) ∈ dot_S5120x128_S128x128_S5120x128_1_0_0_1_n_n.lhsBatch by decide), dif_pos (show (0 : Fin S5120x128.rank) ∈ dot_S5120x128_S128x128_S5120x128_1_0_0_1_n_n.lhsNonContracting by decide)]
    rfl
  lhs1 := fun j q => dot_S5120x128_S128x128_S5120x128_1_0_0_1_n_n.lhsIdx_val_of_single rfl j q
  rhs0 := fun j q => dot_S5120x128_S128x128_S5120x128_1_0_0_1_n_n.rhsIdx_val_of_single rfl j q
  rhs1 := fun j q => by
    unfold DotDims.rhsIdx
    rw [dif_neg (show ¬(1 : Fin S128x128.rank) ∈ dot_S5120x128_S128x128_S5120x128_1_0_0_1_n_n.rhsBatch by decide), dif_pos (show (1 : Fin S128x128.rank) ∈ dot_S5120x128_S128x128_S5120x128_1_0_0_1_n_n.rhsNonContracting by decide)]
    rfl

/-! ## Small layout facts -/

/-- A `[b]` vector viewed `[1, b]` and broadcast down `a` rows: every row is the vector. -/
theorem rowOf_bias {a b : ℕ} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) :
    rowOf (broadcastTo ⟨2, ![a, b]⟩ (shapeCast ⟨2, ![1, b]⟩ v h1) h2) p = fun j => v (ix1 j) :=
  (rowOf_broadcastTo _ h2 p).trans (funext fun j => shapeCast_a_1a_apply v h1 0 j)

/-- A one-entry vector broadcast to `[a]`: every entry is that entry. -/
theorem broadcast_one {a : ℕ} (v : FVec Ideal ⟨1, ![1]⟩ .f32) (h : (⟨1, ![1]⟩ : Shape).Broadcasts ⟨1, ![a]⟩) (p : Fin a) :
    broadcastTo ⟨1, ![a]⟩ v h (ix1 p) = v (ix1 0) :=
  broadcastTo_apply v h (ix1 p) (ix1 0) fun ax => by
    match ax with
    | ⟨0, _⟩ => show (0 : ℕ) = if (1 : ℕ) = 1 then 0 else _; rw [if_pos rfl]

/-- A lane sum from zero, read at a row: the sum of the row. -/
theorem lane_sum (v : FVec Ideal S5120x128 .f32) (hacc : (0x00000000#32 : BitVec 32) = 0x00000000#32) (p : Fin 5120) :
    multiReduction (F := Ideal) .add [1] S5120 v 0x00000000#32 reduces_S5120x128_S5120 (.inl rfl) hacc (ix1 p)
      = ∑ k : Fin 128, rowOf v p k := by
  refine (Ideal.multiReduction_add_single v 0x00000000#32 reduces_S5120x128_S5120 (.inl rfl) hacc (ix1 p)).trans ?_
  refine Finset.sum_congr rfl fun k _ => congrArg v ?_
  funext ax
  match ax with
  | ⟨0, _⟩ => rfl
  | ⟨1, _⟩ => rfl

/-! ## The bodies -/

/-- Body 0 stores `h ↦ h · W` of every row of its block. -/
theorem pay0_rows (x0 : FVec Ideal S1000x128 .f32) (x1 : FVec Ideal S128x128 .f32) :
    k0_pay1 (F := Ideal) x0 x1 = rows1 (project x1) x0 := by
  refine eq_rows1 _ _ _ fun p => ?_
  unfold k0_pay1
  exact rowOf_matmul_zero rtc_node none _ _ p

/-- Body 1 stores `nodeRow` of every pair of rows of its two blocks. -/
theorem pay1_rows (v0 : FVec Ideal S1000x128 .f32) (v2 : FVec Ideal S128x128 .f32) (v5 : FVec Ideal S1000x128 .f32)
    (v8 : FVec Ideal S128 .f32) :
    k1_pay1 (F := Ideal) v0 v2 v5 v8 = rows2 (nodeRow v2 (fun j => v8 (ix1 j)) z0) v5 v0 := by
  refine eq_rows2 _ _ _ _ fun p => ?_
  unfold k1_pay1
  have e1 : shapeCast S1000x128 v5 shapeCasts_S1000x128_S1000x128 = v5 := shapeCast_self _ _
  have e2 := rowOf_matmul_zero rtc_node none (truncf .bf16 v0 bitsLt_bf16_f32) (truncf .bf16 v2 bitsLt_bf16_f32) p
  have e3 := rowOf_bias (a := 1000) v8 shapeCasts_S128_S1x128 broadcasts_S1x128_S1000x128 p
  show relu z0 (fun j => (rowOf (shapeCast S1000x128 v5 shapeCasts_S1000x128_S1000x128) p j
      + rowOf (matmul dot_S1000x128_S128x128_S1000x128_1_0_0_1_n_n none (truncf .bf16 v0 bitsLt_bf16_f32) (truncf .bf16 v2 bitsLt_bf16_f32) (constant (F := Ideal) S1000x128 .f32 0x00000000#32)) p j)
      + rowOf (broadcastTo S1000x128 (shapeCast S1x128 v8 shapeCasts_S128_S1x128) broadcasts_S1x128_S1000x128) p j) = _
  rw [e1, e2, e3]
  rfl

/-- Body 2 stores the split edge score of every pair of rows of its two blocks. -/
theorem pay2_rows (v0 v2 : FVec Ideal S5120x128 .bf16) (v4 v7 : FVec Ideal S128x128 .f32) (v13 v19 : FVec Ideal S128 .f32)
    (v25 : FVec Ideal S1 .f32) :
    k2_pay1 (F := Ideal) v0 v2 v4 v7 v13 v19 v25
      = scal2 (edgeSplit v4 v7 (fun j => v13 (ix1 j)) z0 (fun j => v19 (ix1 j)) (v25 (ix1 0))) v0 v2 := by
  refine eq_scal2 _ _ _ _ fun p => ?_
  unfold k2_pay1
  have c0 : shapeCast S5120x128 v0 shapeCasts_S5120x128_S5120x128 = v0 := shapeCast_self _ _
  have c2 : shapeCast S5120x128 v2 shapeCasts_S5120x128_S5120x128 = v2 := shapeCast_self _ _
  have c4 : shapeCast S128x128 v4 shapeCasts_S128x128_S128x128 = v4 := shapeCast_self _ _
  have c7 : shapeCast S128x128 v7 shapeCasts_S128x128_S128x128 = v7 := shapeCast_self _ _
  have c19 : shapeCast S128 v19 shapeCasts_S128_S128 = v19 := shapeCast_self _ _
  rw [c0, c2, c4, c7, c19]
  have ea := rowOf_matmul_zero rtc_edge none v0 (truncf .bf16 v4 bitsLt_bf16_f32) p
  have eb := rowOf_matmul_zero rtc_edge none v2 (truncf .bf16 v7 bitsLt_bf16_f32) p
  have e13 := rowOf_bias (a := 5120) v13 shapeCasts_S128_S1x128 broadcasts_S1x128_S5120x128 p
  have e19 := rowOf_bias (a := 5120) v19 shapeCasts_S128_S1x128 broadcasts_S1x128_S5120x128 p
  refine (congrArg₂ (· + ·) (lane_sum _ rfl p) (broadcast_one v25 broadcasts_S1_S5120 p)).trans ?_
  unfold edgeSplit
  refine congrArg (· + v25 (ix1 0)) (Finset.sum_congr rfl fun k _ => ?_)
  show relu z0 (fun j => (rowOf (matmul dot_S5120x128_S128x128_S5120x128_1_0_0_1_n_n none v0 (truncf .bf16 v4 bitsLt_bf16_f32) (constant (F := Ideal) S5120x128 .f32 0x00000000#32)) p j
        + rowOf (matmul dot_S5120x128_S128x128_S5120x128_1_0_0_1_n_n none v2 (truncf .bf16 v7 bitsLt_bf16_f32) (constant (F := Ideal) S5120x128 .f32 0x00000000#32)) p j)
        + rowOf (broadcastTo S5120x128 (shapeCast S1x128 v13 shapeCasts_S128_S1x128) broadcasts_S1x128_S5120x128) p j) k
      * rowOf (broadcastTo S5120x128 (shapeCast S1x128 v19 shapeCasts_S128_S1x128) broadcasts_S1x128_S5120x128) p k = _
  rw [ea, eb, e13, e19]
  rfl

end Cert.KernelIdeal.DeviceRows

end
-- ==== Proof.Region0.lean ====
/-
  Region 0, from its blocks to its whole output array.

  The grid has ten points; point `t` reads rows `1000·t … 1000·t + 999` of the node features and the whole weight
  matrix, and writes back the same rows of the output. What it writes is `h ↦ h · W` of every row of its block
  (DeviceRows.lean), which is the matching block of the whole array `rows1 (project W) x`; the ten blocks tile the
  output, so after the region the output array IS that whole array — whatever the region found in its buffers.
-/
import proofs.«159066_j47141561041135_2_alg».proof.Proof.KernelIdealFrameP
import proofs.«159066_j47141561041135_2_alg».proof.Proof.DeviceRows

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.RowLayers Cert.EdgeNet Cert.KernelIdeal Cert.KernelIdeal.Gen Cert.KernelIdeal.GenP Cert.KernelIdeal.DeviceRows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region's whole output: every row of the node features times the weights. -/
abbrev G (c : Dev nD) : S10000x128.Idx → EReal := rows1 (project (V c main_arg3)) (V c main_arg0)

/-- Point `t`'s block of the features is the tile of rows from `1000·t`. -/
theorem tile0 (c : Dev nD) (t : Fin cfg0.N) : TileOf (1000 * t.val) (iblk0 V c 0 t) (V c main_arg0) := by
  obtain ⟨e0, e1, -, -, -, -⟩ := idx_facts t
  intro y x h0 h1
  show V c main_arg0 (((cfg0.win 0).blk t).view.emb y) = V c main_arg0 x
  refine congrArg (V c main_arg0) (funext fun a => Fin.ext ?_)
  match a with
  | ⟨0, _⟩ => show win0_0.index t (0 : Fin 2) * 1000 + 1 * (y 0).val = (x 0).val; omega
  | ⟨1, _⟩ => show win0_0.index t (1 : Fin 2) * 128 + 1 * (y 1).val = (x 1).val; omega

/-- Every point's block of the weights is the whole matrix. -/
theorem whole1 (c : Dev nD) (t : Fin cfg0.N) : iblk0 V c 1 t = V c main_arg3 := by
  obtain ⟨-, -, e2, e3, -, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point `t` writes back is block `t` of the whole output. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  rw [pay0_rows, whole1 V c t]
  obtain ⟨-, -, -, -, e4, e5⟩ := idx_facts t
  funext j
  show rows1 (project (V c main_arg3)) (iblk0 V c 0 t) j = rows1 (project (V c main_arg3)) (V c main_arg0) (((cfg0.win 2).blk t).view.emb j)
  refine rows1_tile _ (tile0 V c t) j _ ?_ ?_
  · show win0_2.index t (0 : Fin 2) * 1000 + 1 * (j 0).val = 1000 * t.val + (j 0).val; omega
  · show win0_2.index t (1 : Fin 2) * 128 + 1 * (j 1).val = (j 1).val; omega

/-- An index of the output is in point `t`'s block iff each coordinate is in the block's range. -/
theorem mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v4).slice (win0_2.rect t)).set ↔ _
  rw [View.set_slice_whole, Rect.mem_set_unit]
  exact Iff.rfl

/-- The ten blocks tile the output: row `r` is in the block of point `r / 1000`. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 10 := N_0
  let t : Fin cfg0.N := ⟨(i 0).val / 1000, by rw [hN]; omega⟩
  obtain ⟨-, -, -, -, e4, e5⟩ := idx_facts t
  have e4' : win0_2.index t (0 : Fin 2) = (i 0).val / 1000 := e4
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- After region 0 its output array is `x · W` row by row, for any contents `V` found at its entry. -/
theorem final (c : Dev nD) : (dat0 V c).arrAt 2 cfg0.N = G V c :=
  (dat0 V c).arrAt_eq_of_cover 2 (G V c) (fun t _ => flushed_eq V c t) cover

end Cert.KernelIdeal.Region0

end
-- ==== Proof.Region1.lean ====
/-
  Region 1, from its blocks to its whole output array.

  The grid has ten points; point `t` reads rows `1000·t … 1000·t + 999` of the aggregated features and of the node
  features, the whole weight matrix and the whole bias vector, and writes back the same rows of the output. What
  it writes is `nodeRow` of every pair of rows of its two blocks (DeviceRows.lean), the matching block of the whole
  array `rows2 nodeRow agg x`; the ten blocks tile the output, so after the region the output array IS that whole
  array — whatever the region found in its buffers.
-/
import proofs.«159066_j47141561041135_2_alg».proof.Proof.KernelIdealFrameP
import proofs.«159066_j47141561041135_2_alg».proof.Proof.DeviceRows

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.RowLayers Cert.EdgeNet Cert.KernelIdeal Cert.KernelIdeal.Gen Cert.KernelIdeal.GenP Cert.KernelIdeal.DeviceRows

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks move with the point, weights and bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The region's whole output: the node layer of every pair of rows. -/
abbrev G (c : Dev nD) : S10000x128.Idx → EReal :=
  rows2 (nodeRow (V c main_arg4) (fun j => V c main_arg5 (ix1 j)) z0) (V c main_v14) (V c main_arg0)

theorem tile0 (c : Dev nD) (t : Fin cfg1.N) : TileOf (1000 * t.val) (iblk1 V c 0 t) (V c main_v14) := by
  have e0 : win1_0.index t (0 : Fin 2) = t.val := (idx_facts t).1
  have e1 : win1_0.index t (1 : Fin 2) = 0 := (idx_facts t).2.1
  intro y x h0 h1
  show V c main_v14 (((cfg1.win 0).blk t).view.emb y) = V c main_v14 x
  refine congrArg (V c main_v14) (funext fun a => Fin.ext ?_)
  match a with
  | ⟨0, _⟩ => show win1_0.index t (0 : Fin 2) * 1000 + 1 * (y 0).val = (x 0).val; omega
  | ⟨1, _⟩ => show win1_0.index t (1 : Fin 2) * 128 + 1 * (y 1).val = (x 1).val; omega

theorem tile1 (c : Dev nD) (t : Fin cfg1.N) : TileOf (1000 * t.val) (iblk1 V c 1 t) (V c main_arg0) := by
  have e0 : win1_1.index t (0 : Fin 2) = t.val := (idx_facts t).2.2.1
  have e1 : win1_1.index t (1 : Fin 2) = 0 := (idx_facts t).2.2.2.1
  intro y x h0 h1
  show V c main_arg0 (((cfg1.win 1).blk t).view.emb y) = V c main_arg0 x
  refine congrArg (V c main_arg0) (funext fun a => Fin.ext ?_)
  match a with
  | ⟨0, _⟩ => show win1_1.index t (0 : Fin 2) * 1000 + 1 * (y 0).val = (x 0).val; omega
  | ⟨1, _⟩ => show win1_1.index t (1 : Fin 2) * 128 + 1 * (y 1).val = (x 1).val; omega

theorem whole2 (c : Dev nD) (t : Fin cfg1.N) : iblk1 V c 2 t = V c main_arg4 := by
  have e0 : win1_2.index t (0 : Fin 2) = 0 := (idx_facts t).2.2.2.2.1
  have e1 : win1_2.index t (1 : Fin 2) = 0 := (idx_facts t).2.2.2.2.2.1
  funext y
  show V c main_arg4 (((cfg1.win 2).blk t).view.emb y) = V c main_arg4 y
  refine congrArg (V c main_arg4) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem whole3 (c : Dev nD) (t : Fin cfg1.N) : iblk1 V c 3 t = V c main_arg5 := by
  have e0 : win1_3.index t (0 : Fin 1) = 0 := (idx_facts t).2.2.2.2.2.2.1
  funext y
  show V c main_arg5 (((cfg1.win 3).blk t).view.emb y) = V c main_arg5 y
  refine congrArg (V c main_arg5) (funext fun a => Fin.ext ?_)
  match a with
  | ⟨0, _⟩ => show win1_3.index t (0 : Fin 1) * 128 + 1 * (y 0).val = (y 0).val; omega

/-- What point `t` writes back is block `t` of the whole output. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S1000x128) hz, View.ld_unit_zero (S := S128x128) hz, View.ld_unit_zero (S := S128) hz1]
  rw [pay1_rows, whole2 V c t, whole3 V c t]
  have e7 : win1_4.index t (0 : Fin 2) = t.val := (idx_facts t).2.2.2.2.2.2.2.1
  have e8 : win1_4.index t (1 : Fin 2) = 0 := (idx_facts t).2.2.2.2.2.2.2.2
  funext j
  show rows2 (nodeRow (V c main_arg4) (fun j => V c main_arg5 (ix1 j)) z0) (iblk1 V c 0 t) (iblk1 V c 1 t) j
      = rows2 (nodeRow (V c main_arg4) (fun j => V c main_arg5 (ix1 j)) z0) (V c main_v14) (V c main_arg0) (((cfg1.win 4).blk t).view.emb j)
  refine rows2_tile _ (tile0 V c t) (tile1 V c t) j _ ?_ ?_
  · show win1_4.index t (0 : Fin 2) * 1000 + 1 * (j 0).val = 1000 * t.val + (j 0).val; omega
  · show win1_4.index t (1 : Fin 2) * 128 + 1 * (j 1).val = (j 1).val; omega

/-- An index of the output is in point `t`'s block iff each coordinate is in the block's range. -/
theorem mem_blk (t : Fin cfg1.N) (i : S10000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v15).slice (win1_4.rect t)).set ↔ _
  rw [View.set_slice_whole, Rect.mem_set_unit]
  exact Iff.rfl

/-- The ten blocks tile the output: row `r` is in the block of point `r / 1000`. -/
theorem cover (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 10 := N_1
  let t : Fin cfg1.N := ⟨(i 0).val / 1000, by rw [hN]; omega⟩
  have e7 : win1_4.index t (0 : Fin 2) = (i 0).val / 1000 := (idx_facts t).2.2.2.2.2.2.2.1
  have e8 : win1_4.index t (1 : Fin 2) = 0 := (idx_facts t).2.2.2.2.2.2.2.2
  refine ⟨t, flush1_4 t, ?_⟩
  rw [mem_blk]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 128 ≤ (i 1).val ∧ (i 1).val < win1_4.index t (1 : Fin 2) * 128 + 128; omega

/-- After region 1 its output array is the node layer row by row, for any contents `V` found at its entry. -/
theorem final (c : Dev nD) : (dat1 V c).arrAt 4 cfg1.N = G V c :=
  (dat1 V c).arrAt_eq_of_cover 4 (G V c) (fun t _ => flushed_eq V c t) cover

end Cert.KernelIdeal.Region1

end
-- ==== Proof.Region2.lean ====
/-
  Region 2, from its blocks to its whole output vector.

  The grid has 125 points; point `t` reads rows `5120·t … 5120·t + 5119` of the two gathered node tables, the two
  halves of the first-layer weights, the two bias vectors and the second-layer weights whole, and writes back
  entries `5120·t … 5120·t + 5119` of the score vector. What it writes is the split edge score of every pair of
  rows of its two blocks (DeviceRows.lean), the matching block of the whole vector `scal2 edgeSplit zs zd`; the
  125 blocks tile the output, so after the region the output vector IS that whole vector — whatever the region
  found in its buffers.
-/
import proofs.«159066_j47141561041135_2_alg».proof.Proof.KernelIdealFrameP
import proofs.«159066_j47141561041135_2_alg».proof.Proof.DeviceRows

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.RowLayers Cert.EdgeNet Cert.KernelIdeal Cert.KernelIdeal.Gen Cert.KernelIdeal.GenP Cert.KernelIdeal.DeviceRows

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the grid: the row blocks move with the point, the parameters stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0 ∧ win2_5.index t (0 : Fin 1) = 0 ∧ win2_6.index t (0 : Fin 1) = 0
    ∧ win2_7.index t (0 : Fin 1) = t.val :=
  (by decide +kernel : ∀ t : Fin grid2.N, _)

/-- The region's whole output: the split score of every pair of rows of the two gathered tables. -/
abbrev G (c : Dev nD) : S640000.Idx → EReal :=
  scal2 (edgeSplit (V c main_v31) (V c main_v32) (fun j => V c main_arg7 (ix1 j)) z0 (fun j => V c main_v33 (ix1 j)) (V c main_arg9 (ix1 0)))
    (V c main_v23) (V c main_v30)

theorem tile0 (c : Dev nD) (t : Fin cfg2.N) : TileOf (5120 * t.val) (iblk2 V c 0 t) (V c main_v23) := by
  have e0 : win2_0.index t (0 : Fin 2) = t.val := (idx_facts t).1
  have e1 : win2_0.index t (1 : Fin 2) = 0 := (idx_facts t).2.1
  intro y x h0 h1
  show V c main_v23 (((cfg2.win 0).blk t).view.emb y) = V c main_v23 x
  refine congrArg (V c main_v23) (funext fun a => Fin.ext ?_)
  match a with
  | ⟨0, _⟩ => show win2_0.index t (0 : Fin 2) * 5120 + 1 * (y 0).val = (x 0).val; omega
  | ⟨1, _⟩ => show win2_0.index t (1 : Fin 2) * 128 + 1 * (y 1).val = (x 1).val; omega

theorem tile1 (c : Dev nD) (t : Fin cfg2.N) : TileOf (5120 * t.val) (iblk2 V c 1 t) (V c main_v30) := by
  have e0 : win2_1.index t (0 : Fin 2) = t.val := (idx_facts t).2.2.1
  have e1 : win2_1.index t (1 : Fin 2) = 0 := (idx_facts t).2.2.2.1
  intro y x h0 h1
  show V c main_v30 (((cfg2.win 1).blk t).view.emb y) = V c main_v30 x
  refine congrArg (V c main_v30) (funext fun a => Fin.ext ?_)
  match a with
  | ⟨0, _⟩ => show win2_1.index t (0 : Fin 2) * 5120 + 1 * (y 0).val = (x 0).val; omega
  | ⟨1, _⟩ => show win2_1.index t (1 : Fin 2) * 128 + 1 * (y 1).val = (x 1).val; omega

theorem whole2 (c : Dev nD) (t : Fin cfg2.N) : iblk2 V c 2 t = V c main_v31 := by
  have e0 : win2_2.index t (0 : Fin 2) = 0 := (idx_facts t).2.2.2.2.1
  have e1 : win2_2.index t (1 : Fin 2) = 0 := (idx_facts t).2.2.2.2.2.1
  funext y
  show V c main_v31 (((cfg2.win 2).blk t).view.emb y) = V c main_v31 y
  refine congrArg (V c main_v31) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem whole3 (c : Dev nD) (t : Fin cfg2.N) : iblk2 V c 3 t = V c main_v32 := by
  have e0 : win2_3.index t (0 : Fin 2) = 0 := (idx_facts t).2.2.2.2.2.2.1
  have e1 : win2_3.index t (1 : Fin 2) = 0 := (idx_facts t).2.2.2.2.2.2.2.1
  funext y
  show V c main_v32 (((cfg2.win 3).blk t).view.emb y) = V c main_v32 y
  refine congrArg (V c main_v32) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem whole4 (c : Dev nD) (t : Fin cfg2.N) : iblk2 V c 4 t = V c main_arg7 := by
  have e0 : win2_4.index t (0 : Fin 1) = 0 := (idx_facts t).2.2.2.2.2.2.2.2.1
  funext y
  show V c main_arg7 (((cfg2.win 4).blk t).view.emb y) = V c main_arg7 y
  refine congrArg (V c main_arg7) (funext fun a => Fin.ext ?_)
  match a with
  | ⟨0, _⟩ => show win2_4.index t (0 : Fin 1) * 128 + 1 * (y 0).val = (y 0).val; omega

theorem whole5 (c : Dev nD) (t : Fin cfg2.N) : iblk2 V c 5 t = V c main_v33 := by
  have e0 : win2_5.index t (0 : Fin 1) = 0 := (idx_facts t).2.2.2.2.2.2.2.2.2.1
  funext y
  show V c main_v33 (((cfg2.win 5).blk t).view.emb y) = V c main_v33 y
  refine congrArg (V c main_v33) (funext fun a => Fin.ext ?_)
  match a with
  | ⟨0, _⟩ => show win2_5.index t (0 : Fin 1) * 128 + 1 * (y 0).val = (y 0).val; omega

theorem whole6 (c : Dev nD) (t : Fin cfg2.N) : iblk2 V c 6 t = V c main_arg9 := by
  have e0 : win2_6.index t (0 : Fin 1) = 0 := (idx_facts t).2.2.2.2.2.2.2.2.2.2.1
  funext y
  show V c main_arg9 (((cfg2.win 6).blk t).view.emb y) = V c main_arg9 y
  refine congrArg (V c main_arg9) (funext fun a => Fin.ext ?_)
  match a with
  | ⟨0, _⟩ => show win2_6.index t (0 : Fin 1) * 1 + 1 * (y 0).val = (y 0).val; omega

/-- What point `t` writes back is block `t` of the whole output. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz1]
  simp only [View.ld_unit_zero (S := S5120x128) hz, View.ld_unit_zero (S := S128x128) hz, View.ld_unit_zero (S := S128) hz1,
    View.ld_unit_zero (S := S1) hz1]
  rw [pay2_rows, whole2 V c t, whole3 V c t, whole4 V c t, whole5 V c t, whole6 V c t]
  have e11 : win2_7.index t (0 : Fin 1) = t.val := (idx_facts t).2.2.2.2.2.2.2.2.2.2.2
  funext j
  show scal2 (edgeSplit (V c main_v31) (V c main_v32) (fun j => V c main_arg7 (ix1 j)) z0 (fun j => V c main_v33 (ix1 j)) (V c main_arg9 (ix1 0)))
        (iblk2 V c 0 t) (iblk2 V c 1 t) j
      = scal2 (edgeSplit (V c main_v31) (V c main_v32) (fun j => V c main_arg7 (ix1 j)) z0 (fun j => V c main_v33 (ix1 j)) (V c main_arg9 (ix1 0)))
        (V c main_v23) (V c main_v30) (((cfg2.win 7).blk t).view.emb j)
  refine scal2_tile _ (tile0 V c t) (tile1 V c t) j _ ?_
  show win2_7.index t (0 : Fin 1) * 5120 + 1 * (j 0).val = 5120 * t.val + (j 0).val; omega

/-- An index of the output is in point `t`'s block iff its coordinate is in the block's range. -/
theorem mem_blk (t : Fin cfg2.N) (i : S640000.Idx) :
    i ∈ ((cfg2.win 7).blk t).view.set ↔ ∀ a : Fin 1, win2_7.index t a * S5120.size a ≤ (i a).val ∧ (i a).val < win2_7.index t a * S5120.size a + S5120.size a := by
  show i ∈ ((View.whole main_v34).slice (win2_7.rect t)).set ↔ _
  rw [View.set_slice_whole, Rect.mem_set_unit]
  exact Iff.rfl

/-- The 125 blocks tile the output: entry `e` is in the block of point `e / 5120`. -/
theorem cover (i : S640000.Idx) : ∃ t : Fin cfg2.N, (cfg2.win 7).flush t = true ∧ i ∈ ((cfg2.win 7).blk t).view.set := by
  have hi0 : (i 0).val < 640000 := (i 0).isLt
  have hN : cfg2.N = 125 := N_2
  let t : Fin cfg2.N := ⟨(i 0).val / 5120, by rw [hN]; omega⟩
  have e11 : win2_7.index t (0 : Fin 1) = (i 0).val / 5120 := (idx_facts t).2.2.2.2.2.2.2.2.2.2.2
  refine ⟨t, flush2_7 t, ?_⟩
  rw [mem_blk]
  intro a
  match a with
  | ⟨0, _⟩ => show win2_7.index t (0 : Fin 1) * 5120 ≤ (i 0).val ∧ (i 0).val < win2_7.index t (0 : Fin 1) * 5120 + 5120; omega

/-- After region 2 its output vector is the split edge score entry by entry, for any contents `V` found at its entry. -/
theorem final (c : Dev nD) : (dat2 V c).arrAt 7 cfg2.N = G V c :=
  (dat2 V c).arrAt_eq_of_cover 7 (G V c) (fun t _ => flushed_eq V c t) cover

end Cert.KernelIdeal.Region2

end
-- ==== Proof.RefValue.lean ====
/-
  The reference program's two results, layer by layer, over the extended reals.

  The reference computes the node features `x · W_in`, gathers them at the edges' sources and adds them up at the
  targets, applies the node layer `max (agg + x · W_self + b) 0`, and then (a) scores every edge by a two-layer
  perceptron of its two end nodes' rows set side by side and (b) pools the node rows per graph and classifies.
  Every dense layer is read row by row (LibRowLayers.lean), so the node features are `rows1 project`, the node
  layer is `rows2 nodeRow` and the edge scores are `rows2 edgeJoined` of the gathered rows; the gathers, the
  scatter-additions and the pooling head are kept as the array operations they are (`aggOf`, `clsOf`), since the
  kernel applies the very same operations.
-/
import proofs.«159066_j47141561041135_2_alg».proof.Proof.Gen.ReferenceIdeal.Read
import proofs.«159066_j47141561041135_2_alg».proof.Proof.LibEdgeRows

noncomputable section

namespace Cert.ReferenceIdeal.RefValue

open Idealize.ShloMosaic Idealize.ShloMosaic.ValueIdx Cert.RowLayers Cert.EdgeNet Cert.ReferenceIdeal Cert.ReferenceIdeal.Gen Cert.ReferenceIdeal.Read

/-- The zero threshold of the rectifiers, kept as the word the program prints. -/
abbrev zR : EReal := Ideal.ofBits .f32 0x00000000#32

/-! ## The printed products are "rows times columns" -/

theorem rtc_node : RowsTimesCols dot_S10000x128_S128x128_S10000x128_1_0_0_1_n_n where
  rank := rfl
  size := rfl
  lhs0 := fun j q => by
    unfold DotDims.lhsIdx
    rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
    rfl
  lhs1 := fun j q => dot_S10000x128_S128x128_S10000x128_1_0_0_1_n_n.lhsIdx_val_of_single rfl j q
  rhs0 := fun j q => dot_S10000x128_S128x128_S10000x128_1_0_0_1_n_n.rhsIdx_val_of_single rfl j q
  rhs1 := fun j q => by
    unfold DotDims.rhsIdx
    rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
    rfl

theorem rtc_hidden : RowsTimesCols dot_S640000x256_S256x128_S640000x128_1_0_0_1_n_n where
  rank := rfl
  size := rfl
  lhs0 := fun j q => by
    unfold DotDims.lhsIdx
    rw [dif_neg (show ¬(0 : Fin S640000x256.rank) ∈ dot_S640000x256_S256x128_S640000x128_1_0_0_1_n_n.lhsBatch by decide), dif_pos (show (0 : Fin S640000x256.rank) ∈ dot_S640000x256_S256x128_S640000x128_1_0_0_1_n_n.lhsNonContracting by decide)]
    rfl
  lhs1 := fun j q => dot_S640000x256_S256x128_S640000x128_1_0_0_1_n_n.lhsIdx_val_of_single rfl j q
  rhs0 := fun j q => dot_S640000x256_S256x128_S640000x128_1_0_0_1_n_n.rhsIdx_val_of_single rfl j q
  rhs1 := fun j q => by
    unfold DotDims.rhsIdx
    rw [dif_neg (show ¬(1 : Fin S256x128.rank) ∈ dot_S640000x256_S256x128_S640000x128_1_0_0_1_n_n.rhsBatch by decide), dif_pos (show (1 : Fin S256x128.rank) ∈ dot_S640000x256_S256x128_S640000x128_1_0_0_1_n_n.rhsNonContracting by decide)]
    rfl

theorem rtc_score : RowsTimesCols dot_S640000x128_S128x1_S640000x1_1_0_0_1_n_n where
  rank := rfl
  size := rfl
  lhs0 := fun j q => by
    unfold DotDims.lhsIdx
    rw [dif_neg (show ¬(0 : Fin S640000x128.rank) ∈ dot_S640000x128_S128x1_S640000x1_1_0_0_1_n_n.lhsBatch by decide), dif_pos (show (0 : Fin S640000x128.rank) ∈ dot_S640000x128_S128x1_S640000x1_1_0_0_1_n_n.lhsNonContracting by decide)]
    rfl
  lhs1 := fun j q => dot_S640000x128_S128x1_S640000x1_1_0_0_1_n_n.lhsIdx_val_of_single rfl j q
  rhs0 := fun j q => dot_S640000x128_S128x1_S640000x1_1_0_0_1_n_n.rhsIdx_val_of_single rfl j q
  rhs1 := fun j q => by
    unfold DotDims.rhsIdx
    rw [dif_neg (show ¬(1 : Fin S128x1.rank) ∈ dot_S640000x128_S128x1_S640000x1_1_0_0_1_n_n.rhsBatch by decide), dif_pos (show (1 : Fin S128x1.rank) ∈ dot_S640000x128_S128x1_S640000x1_1_0_0_1_n_n.rhsNonContracting by decide)]
    rfl

/-! ## The shared array operations, with the table they read as a parameter -/

/-- Rows of a node table `h` gathered at the edges' sources and added up at the edges' targets. -/
def aggOf (h : FVec Ideal S10000x128 .f32) (x1 : Vec Ideal S2x640000 .i32) : FVec Ideal S10000x128 .f32 :=
  Host.scatterAdd (F := Ideal) scatter_S10000x128_S640000x1_S640000x128_1_0_0_1 (val_main_v12 (F := Ideal)) (val_main_v13 (F := Ideal) x1)
    (Host.gather gather_S10000x128_S640000x1_S640000x128_1_0_n_n_0_1_1128 h (val_main_v10 (F := Ideal) x1))

/-- The node layer's output as one whole-array function of the arguments. -/
def nodeOf (x0 : FVec Ideal S10000x128 .f32) (x1 : Vec Ideal S2x640000 .i32) (x3 x4 : FVec Ideal S128x128 .f32) (x5 : FVec Ideal S128 .f32) :
    FVec Ideal S10000x128 .f32 :=
  rows2 (nodeRow x4 (fun j => x5 (ix1 j)) zR) (aggOf (rows1 (project x3) x0) x1) x0

/-- The edge scores from the two gathered tables. -/
def edgeOf (zs zd : FVec Ideal S640000x128 .f32) (x6 : FVec Ideal S256x128 .f32) (x7 : FVec Ideal S128 .f32) (x8 : FVec Ideal S128x1 .f32)
    (x9 : FVec Ideal S1 .f32) : FVec Ideal S640000x1 .f32 :=
  rows2 (edgeJoined (rfl : 256 = 128 + 128) x6 (fun j => x7 (ix1 j)) zR x8 (fun j => x9 (ix1 j))) zs zd

/-- The pooling and classification head applied to a node table `z`. -/
def clsOf (z : FVec Ideal S10000x128 .f32) (x2 : Vec Ideal S10000 .i32) (x10 : FVec Ideal S128x10 .f32) (x11 : FVec Ideal S10 .f32) :
    FVec Ideal S16x10 .f32 :=
  addf (Host.dotGeneral (F := Ideal) dot_S16x128_S128x10_S16x10_1_0_0_1_n_n none
      (Host.divf (F := Ideal) (Host.scatterAdd (F := Ideal) scatter_S16x128_S10000x1_S10000x128_1_0_0_1 (val_main_v21 (F := Ideal)) (val_main_v22 (F := Ideal) x2) z)
        (val_main_v31 (F := Ideal) x2)) x10)
    (val_main_v59 (F := Ideal) x11)

/-! ## The stages -/

theorem v4_eq (x0 : FVec Ideal S10000x128 .f32) (x3 : FVec Ideal S128x128 .f32) :
    val_main_v4 (F := Ideal) x0 x3 = rows1 (project x3) x0 := by
  refine eq_rows1 _ _ _ fun p => ?_
  unfold val_main_v4
  exact rowOf_dotGeneral rtc_node none x0 x3 p

theorem v14_eq (x0 : FVec Ideal S10000x128 .f32) (x1 : Vec Ideal S2x640000 .i32) (x3 : FVec Ideal S128x128 .f32) :
    val_main_v14 (F := Ideal) x0 x1 x3 = aggOf (rows1 (project x3) x0) x1 := by
  unfold val_main_v14 val_main_v11 aggOf
  rw [v4_eq]

theorem v20_eq (x0 : FVec Ideal S10000x128 .f32) (x1 : Vec Ideal S2x640000 .i32) (x3 x4 : FVec Ideal S128x128 .f32) (x5 : FVec Ideal S128 .f32) :
    val_main_v20 (F := Ideal) x0 x1 x3 x4 x5 = nodeOf x0 x1 x3 x4 x5 := by
  unfold nodeOf
  rw [← v14_eq]
  refine eq_rows2 _ _ _ _ fun p => ?_
  unfold val_main_v20 val_main_call0_v0 val_main_call0_cst val_main_v19 val_main_v16 val_main_v18 val_main_v17 val_main_v15
  have e2 := rowOf_dotGeneral rtc_node none x0 x4 p
  have e3 := rowOf_broadcastInDim_vec (a := 10000) x5 bcast_S128_S1x128_1 bcast_S1x128_S10000x128_0_1 p
  show relu zR (fun j => (rowOf (val_main_v14 (F := Ideal) x0 x1 x3) p j
      + rowOf (Host.dotGeneral (F := Ideal) dot_S10000x128_S128x128_S10000x128_1_0_0_1_n_n none x0 x4) p j)
      + rowOf (broadcastInDim S10000x128 ![0, 1] bcast_S1x128_S10000x128_0_1 (broadcastInDim S1x128 ![1] bcast_S128_S1x128_1 x5)) p j) = _
  rw [e2, e3]
  rfl

theorem v56_eq (x0 : FVec Ideal S10000x128 .f32) (x1 : Vec Ideal S2x640000 .i32) (x3 x4 : FVec Ideal S128x128 .f32) (x5 : FVec Ideal S128 .f32)
    (x6 : FVec Ideal S256x128 .f32) (x7 : FVec Ideal S128 .f32) (x8 : FVec Ideal S128x1 .f32) (x9 : FVec Ideal S1 .f32) :
    val_main_v56 (F := Ideal) x0 x1 x3 x4 x5 x6 x7 x8 x9
      = edgeOf (val_main_v39 (F := Ideal) x0 x1 x3 x4 x5) (val_main_v46 (F := Ideal) x0 x1 x3 x4 x5) x6 x7 x8 x9 := by
  refine eq_rows2 _ _ _ _ fun p => ?_
  unfold val_main_v56 val_main_v55 val_main_v54 val_main_v53 val_main_v52 val_main_call1_v0 val_main_call1_cst val_main_v51 val_main_v50
    val_main_v49 val_main_v48 val_main_v47
  rw [rowOf_dense_host rtc_score, rowOf_maximumf_const, rowOf_dense_host rtc_hidden,
    rowOf_concat_cols _ _ _ (rfl : 256 = 128 + 128)]
  rfl

theorem v60_eq (x0 : FVec Ideal S10000x128 .f32) (x1 : Vec Ideal S2x640000 .i32) (x2 : Vec Ideal S10000 .i32) (x3 x4 : FVec Ideal S128x128 .f32)
    (x5 : FVec Ideal S128 .f32) (x10 : FVec Ideal S128x10 .f32) (x11 : FVec Ideal S10 .f32) :
    val_main_v60 (F := Ideal) x0 x1 x2 x3 x4 x5 x10 x11 = clsOf (nodeOf x0 x1 x3 x4 x5) x2 x10 x11 := by
  unfold val_main_v60 val_main_v57 val_main_v32 val_main_v23 clsOf
  rw [v20_eq]

/-- The reference's first result: the joined edge scores of the node layer's rows gathered at the two ends. -/
theorem v56_closed (x0 : FVec Ideal S10000x128 .f32) (x1 : Vec Ideal S2x640000 .i32) (x3 x4 : FVec Ideal S128x128 .f32) (x5 : FVec Ideal S128 .f32)
    (x6 : FVec Ideal S256x128 .f32) (x7 : FVec Ideal S128 .f32) (x8 : FVec Ideal S128x1 .f32) (x9 : FVec Ideal S1 .f32) :
    val_main_v56 (F := Ideal) x0 x1 x3 x4 x5 x6 x7 x8 x9
      = edgeOf (Host.gather gather_S10000x128_S640000x1_S640000x128_1_0_n_n_0_1_1128 (nodeOf x0 x1 x3 x4 x5) (val_main_v38 (F := Ideal) x1))
          (Host.gather gather_S10000x128_S640000x1_S640000x128_1_0_n_n_0_1_1128 (nodeOf x0 x1 x3 x4 x5) (val_main_v45 (F := Ideal) x1)) x6 x7 x8 x9 := by
  rw [v56_eq]
  unfold val_main_v39 val_main_v46
  rw [v20_eq]

end Cert.ReferenceIdeal.RefValue

end
-- ==== Proof.KernelValue.lean ====
/-
  What the idealized kernel's run leaves in its two result buffers, as functions of the twelve arguments.

  The run is a fold through seven segments (KernelRun.lean). Walking it from the launch memory:

    * stretch 0 cuts the edge list into its source and target vectors;
    * region 0 leaves the node features `x · W_in` row by row (Region0.lean);
    * stretch 1 gathers those rows at the edges' sources and adds them up at the targets;
    * region 1 leaves the node layer `max (agg + x · W_self + b) 0` row by row (Region1.lean);
    * stretch 2 gathers the node layer's rows at the two ends of every edge, cuts the first-layer weights of the
      edge scorer into their two halves and views the second-layer weights as a vector;
    * region 2 leaves the split edge score of every edge (Region2.lean);
    * stretch 3 views the scores as a column and applies the pooling and classification head to the node layer.

  A buffer that a segment neither writes nor owns keeps its contents through it, so every argument is read at the
  launch memory. The gathers, the scatter-additions and the head are the array operations the reference applies
  as well; they are named once (RefValue.lean's `aggOf`, `clsOf`, and the reference's index stages) and never opened.
-/
import proofs.«159066_j47141561041135_2_alg».proof.Proof.KernelIdealFrameP
import proofs.«159066_j47141561041135_2_alg».proof.Proof.Region0
import proofs.«159066_j47141561041135_2_alg».proof.Proof.Region1
import proofs.«159066_j47141561041135_2_alg».proof.Proof.Region2
import proofs.«159066_j47141561041135_2_alg».proof.Proof.RefValue

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.RowLayers Cert.EdgeNet Cert.KernelIdeal Cert.KernelIdeal.Gen Cert.KernelIdeal.GenP Cert.KernelIdeal.DeviceRows
open Cert.ReferenceIdeal.Read (val_main_v1 val_main_v3 val_main_v38 val_main_v45)
open Cert.ReferenceIdeal.RefValue (aggOf nodeOf clsOf)

variable (m : (ℓ : Loc nD τ sig) → Buf (Elt Ideal) ℓ) (ρ : Dev nD → PrngReg)

/-- A buffer none of a stretch's operations writes keeps its contents through the stretch. -/
macro "keeps" : tactic => `(tactic| exact StableHlo.after_of_forall_not_mem _ _ (List.forall_iff_forall_mem.mp (by
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

/-! ## The arguments, as launched -/

abbrev a0 (c : Dev nD) : FVec Ideal S10000x128 .f32 := m ((c : Thread nD τ).loc main_arg0)
abbrev a1 (c : Dev nD) : Vec Ideal S2x640000 .i32 := m ((c : Thread nD τ).loc main_arg1)
abbrev a2 (c : Dev nD) : Vec Ideal S10000 .i32 := m ((c : Thread nD τ).loc main_arg2)
abbrev a3 (c : Dev nD) : FVec Ideal S128x128 .f32 := m ((c : Thread nD τ).loc main_arg3)
abbrev a4 (c : Dev nD) : FVec Ideal S128x128 .f32 := m ((c : Thread nD τ).loc main_arg4)
abbrev a5 (c : Dev nD) : FVec Ideal S128 .f32 := m ((c : Thread nD τ).loc main_arg5)
abbrev a6 (c : Dev nD) : FVec Ideal S256x128 .f32 := m ((c : Thread nD τ).loc main_arg6)
abbrev a7 (c : Dev nD) : FVec Ideal S128 .f32 := m ((c : Thread nD τ).loc main_arg7)
abbrev a8 (c : Dev nD) : FVec Ideal S128x1 .f32 := m ((c : Thread nD τ).loc main_arg8)
abbrev a9 (c : Dev nD) : FVec Ideal S1 .f32 := m ((c : Thread nD τ).loc main_arg9)
abbrev a10 (c : Dev nD) : FVec Ideal S128x10 .f32 := m ((c : Thread nD τ).loc main_arg10)
abbrev a11 (c : Dev nD) : FVec Ideal S10 .f32 := m ((c : Thread nD τ).loc main_arg11)

/-! ## Stretch 0 and region 0 -/

theorem W1_v1 (c : Dev nD) : W1 m ρ c (Proc.devRef .tc main_v1) = val_main_v1 (F := Ideal) (a1 m c) := by
  show StableHlo.after hostOps0 (W0 m ρ c) (Proc.devRef .tc main_v1) = _
  after_results
  rfl

theorem W1_v3 (c : Dev nD) : W1 m ρ c (Proc.devRef .tc main_v3) = val_main_v3 (F := Ideal) (a1 m c) := by
  show StableHlo.after hostOps0 (W0 m ρ c) (Proc.devRef .tc main_v3) = _
  after_results
  rfl

/-- The arguments no segment up to region 1's exit writes or owns, at that boundary and at the two before it. -/
theorem untouched (c : Dev nD) : ∀ b ∈ [main_arg2, main_arg4, main_arg5, main_arg6, main_arg7, main_arg8, main_arg9, main_arg10, main_arg11],
    W1 m ρ c (Proc.devRef .tc b) = m ((c : Thread nD τ).loc b)
    ∧ W2 m ρ c (Proc.devRef .tc b) = m ((c : Thread nD τ).loc b)
    ∧ W3 m ρ c (Proc.devRef .tc b) = m ((c : Thread nD τ).loc b) := by
  intro b hb
  simp only [List.mem_cons, List.mem_nil_iff, or_false] at hb
  have h1 : W1 m ρ c (Proc.devRef .tc b) = m ((c : Thread nD τ).loc b) := by
    rcases hb with rfl | rfl | rfl | rfl | rfl | rfl | rfl | rfl | rfl <;> keeps
  have h2 : W2 m ρ c (Proc.devRef .tc b) = W1 m ρ c (Proc.devRef .tc b) := by
    rcases hb with rfl | rfl | rfl | rfl | rfl | rfl | rfl | rfl | rfl <;> exact W2_of_ne m ρ c _ (by decide)
  have h3 : W3 m ρ c (Proc.devRef .tc b) = W2 m ρ c (Proc.devRef .tc b) := by
    rcases hb with rfl | rfl | rfl | rfl | rfl | rfl | rfl | rfl | rfl <;> keeps
  exact ⟨h1, h2.trans h1, h3.trans (h2.trans h1)⟩

theorem W1_arg0 (c : Dev nD) : W1 m ρ c (Proc.devRef .tc main_arg0) = a0 m c := by keeps
theorem W1_arg3 (c : Dev nD) : W1 m ρ c (Proc.devRef .tc main_arg3) = a3 m c := by keeps

/-- Region 0 leaves the node features `x · W_in`, row by row. -/
theorem W2_v4 (c : Dev nD) : W2 m ρ c (Proc.devRef .tc main_v4) = rows1 (project (a3 m c)) (a0 m c) := by
  refine (W2_arr m ρ c 2).trans ((Region0.final (V1 m ρ) c).trans ?_)
  show rows1 (project (W1 m ρ c (Proc.devRef .tc main_arg3))) (W1 m ρ c (Proc.devRef .tc main_arg0)) = _
  rw [W1_arg0, W1_arg3]

theorem W2_arg0 (c : Dev nD) : W2 m ρ c (Proc.devRef .tc main_arg0) = a0 m c :=
  ((W2_arr m ρ c 0).trans (((dat0 (V1 m ρ) c).arrAt_in 0 rfl _).trans (A_eq0 (V1 m ρ) c 0))).trans (W1_arg0 m ρ c)

theorem W2_v1 (c : Dev nD) : W2 m ρ c (Proc.devRef .tc main_v1) = val_main_v1 (F := Ideal) (a1 m c) :=
  (W2_of_ne m ρ c main_v1 (by decide)).trans (W1_v1 m ρ c)

theorem W2_v3 (c : Dev nD) : W2 m ρ c (Proc.devRef .tc main_v3) = val_main_v3 (F := Ideal) (a1 m c) :=
  (W2_of_ne m ρ c main_v3 (by decide)).trans (W1_v3 m ρ c)

/-! ## Stretch 1 and region 1 -/

/-- Stretch 1 gathers the node features at the sources and adds them up at the targets. -/
theorem W3_v14 (c : Dev nD) : W3 m ρ c (Proc.devRef .tc main_v14) = aggOf (rows1 (project (a3 m c)) (a0 m c)) (a1 m c) := by
  have e : W3 m ρ c (Proc.devRef .tc main_v14)
      = Host.scatterAdd (F := Ideal) scatter_S10000x128_S640000x1_S640000x128_1_0_0_1
          (broadcastInDim S10000x128 ![] bcast_S_S10000x128 (constant (F := Ideal) S_ .f32 0x00000000#32))
          (broadcastInDim S640000x1 ![0] bcast_S640000_S640000x1_0 (W2 m ρ c (Proc.devRef .tc main_v3)))
          (Host.gather gather_S10000x128_S640000x1_S640000x128_1_0_n_n_0_1_1128 (W2 m ρ c (Proc.devRef .tc main_v4))
            (broadcastInDim S640000x1 ![0] bcast_S640000_S640000x1_0
              (select (cmpi .slt (W2 m ρ c (Proc.devRef .tc main_v1)) (broadcastInDim S640000 ![] bcast_S_S640000 (constantI S_ 32 0#32)))
                (addi (W2 m ρ c (Proc.devRef .tc main_v1)) (broadcastInDim S640000 ![] bcast_S_S640000 (constantI S_ 32 10000#32)))
                (W2 m ρ c (Proc.devRef .tc main_v1))))) := by
    show StableHlo.after hostOps1 (W2 m ρ c) (Proc.devRef .tc main_v14) = _
    after_results
  rw [e, W2_v1, W2_v3, W2_v4]
  rfl

theorem W3_v1 (c : Dev nD) : W3 m ρ c (Proc.devRef .tc main_v1) = val_main_v1 (F := Ideal) (a1 m c) :=
  (show W3 m ρ c (Proc.devRef .tc main_v1) = W2 m ρ c (Proc.devRef .tc main_v1) by keeps).trans (W2_v1 m ρ c)

theorem W3_v3 (c : Dev nD) : W3 m ρ c (Proc.devRef .tc main_v3) = val_main_v3 (F := Ideal) (a1 m c) :=
  (show W3 m ρ c (Proc.devRef .tc main_v3) = W2 m ρ c (Proc.devRef .tc main_v3) by keeps).trans (W2_v3 m ρ c)

theorem W3_arg0 (c : Dev nD) : W3 m ρ c (Proc.devRef .tc main_arg0) = a0 m c :=
  (show W3 m ρ c (Proc.devRef .tc main_arg0) = W2 m ρ c (Proc.devRef .tc main_arg0) by keeps).trans (W2_arg0 m ρ c)

/-- Region 1 leaves the node layer, row by row. -/
theorem W4_v15 (c : Dev nD) :
    W4 m ρ c (Proc.devRef .tc main_v15) = nodeOf (a0 m c) (a1 m c) (a3 m c) (a4 m c) (a5 m c) := by
  refine (W4_arr m ρ c 4).trans ((Region1.final (V3 m ρ) c).trans ?_)
  show rows2 (nodeRow (W3 m ρ c (Proc.devRef .tc main_arg4)) (fun j => W3 m ρ c (Proc.devRef .tc main_arg5) (ix1 j)) z0)
      (W3 m ρ c (Proc.devRef .tc main_v14)) (W3 m ρ c (Proc.devRef .tc main_arg0)) = _
  rw [W3_v14, W3_arg0, (untouched m ρ c main_arg4 (by decide)).2.2, (untouched m ρ c main_arg5 (by decide)).2.2]
  rfl

/-- What region 1 does not own it leaves alone. -/
theorem W4_keeps (c : Dev nD) (b : Ref sig .tc) (hb : ∀ w, Pipeline.arrRef spec1 w ≠ b) :
    W4 m ρ c (Proc.devRef .tc b) = W3 m ρ c (Proc.devRef .tc b) := W4_of_ne m ρ c b hb

/-! ## Stretch 2 and region 2 -/

/-- The index column a gather reads, from a vector of node numbers: negative numbers wrapped once. -/
theorem W5_v23 (c : Dev nD) : W5 m ρ c (Proc.devRef .tc main_v23)
    = Host.gather Cert.ReferenceIdeal.gather_S10000x128_S640000x1_S640000x128_1_0_n_n_0_1_1128
        (nodeOf (a0 m c) (a1 m c) (a3 m c) (a4 m c) (a5 m c)) (val_main_v38 (F := Ideal) (a1 m c)) := by
  have e : W5 m ρ c (Proc.devRef .tc main_v23)
      = Host.gather gather_S10000x128_S640000x1_S640000x128_1_0_n_n_0_1_1128
          (truncf .bf16 (W4 m ρ c (Proc.devRef .tc main_v15) : FVec Ideal S10000x128 .f32) bitsLt_bf16_f32 : FVec Ideal S10000x128 .bf16)
          (broadcastInDim S640000x1 ![0] bcast_S640000_S640000x1_0
            (select (cmpi .slt (W4 m ρ c (Proc.devRef .tc main_v1)) (broadcastInDim S640000 ![] bcast_S_S640000 (constantI S_ 32 0#32)))
              (addi (W4 m ρ c (Proc.devRef .tc main_v1)) (broadcastInDim S640000 ![] bcast_S_S640000 (constantI S_ 32 10000#32)))
              (W4 m ρ c (Proc.devRef .tc main_v1)))) := by
    show StableHlo.after hostOps2 (W4 m ρ c) (Proc.devRef .tc main_v23) = _
    after_results
  rw [e, W4_v15, W4_keeps m ρ c main_v1 (by decide), W3_v1]
  rfl

theorem W5_v30 (c : Dev nD) : W5 m ρ c (Proc.devRef .tc main_v30)
    = Host.gather Cert.ReferenceIdeal.gather_S10000x128_S640000x1_S640000x128_1_0_n_n_0_1_1128
        (nodeOf (a0 m c) (a1 m c) (a3 m c) (a4 m c) (a5 m c)) (val_main_v45 (F := Ideal) (a1 m c)) := by
  have e : W5 m ρ c (Proc.devRef .tc main_v30)
      = Host.gather gather_S10000x128_S640000x1_S640000x128_1_0_n_n_0_1_1128
          (truncf .bf16 (W4 m ρ c (Proc.devRef .tc main_v15) : FVec Ideal S10000x128 .f32) bitsLt_bf16_f32 : FVec Ideal S10000x128 .bf16)
          (broadcastInDim S640000x1 ![0] bcast_S640000_S640000x1_0
            (select (cmpi .slt (W4 m ρ c (Proc.devRef .tc main_v3)) (broadcastInDim S640000 ![] bcast_S_S640000 (constantI S_ 32 0#32)))
              (addi (W4 m ρ c (Proc.devRef .tc main_v3)) (broadcastInDim S640000 ![] bcast_S_S640000 (constantI S_ 32 10000#32)))
              (W4 m ρ c (Proc.devRef .tc main_v3)))) := by
    show StableHlo.after hostOps2 (W4 m ρ c) (Proc.devRef .tc main_v30) = _
    after_results
  rw [e, W4_v15, W4_keeps m ρ c main_v3 (by decide), W3_v3]
  rfl

/-- An argument read at region 1's exit. -/
theorem W4_arg (c : Dev nD) : ∀ b ∈ [main_arg2, main_arg6, main_arg7, main_arg8, main_arg9, main_arg10, main_arg11],
    W4 m ρ c (Proc.devRef .tc b) = m ((c : Thread nD τ).loc b) := by
  intro b hb
  have hb' : b ∈ [main_arg2, main_arg4, main_arg5, main_arg6, main_arg7, main_arg8, main_arg9, main_arg10, main_arg11] := by
    simp only [List.mem_cons, List.mem_nil_iff, or_false] at hb ⊢
    rcases hb with rfl | rfl | rfl | rfl | rfl | rfl | rfl <;> simp
  refine Eq.trans ?_ (untouched m ρ c b hb').2.2
  simp only [List.mem_cons, List.mem_nil_iff, or_false] at hb
  rcases hb with rfl | rfl | rfl | rfl | rfl | rfl | rfl <;> exact W4_of_ne m ρ c _ (by decide)

theorem W5_v31 (c : Dev nD) : W5 m ρ c (Proc.devRef .tc main_v31)
    = extractStridedSlice S128x128 ![0, 0] (a6 m c) slices_S256x128_S128x128_0_0 := by
  have e : W5 m ρ c (Proc.devRef .tc main_v31)
      = extractStridedSlice S128x128 ![0, 0] (W4 m ρ c (Proc.devRef .tc main_arg6)) slices_S256x128_S128x128_0_0 := by
    show StableHlo.after hostOps2 (W4 m ρ c) (Proc.devRef .tc main_v31) = _
    after_results
  rw [e, W4_arg m ρ c main_arg6 (by decide)]

theorem W5_v32 (c : Dev nD) : W5 m ρ c (Proc.devRef .tc main_v32)
    = extractStridedSlice S128x128 ![128, 0] (a6 m c) slices_S256x128_S128x128_128_0 := by
  have e : W5 m ρ c (Proc.devRef .tc main_v32)
      = extractStridedSlice S128x128 ![128, 0] (W4 m ρ c (Proc.devRef .tc main_arg6)) slices_S256x128_S128x128_128_0 := by
    show StableHlo.after hostOps2 (W4 m ρ c) (Proc.devRef .tc main_v32) = _
    after_results
  rw [e, W4_arg m ρ c main_arg6 (by decide)]

theorem W5_v33 (c : Dev nD) : W5 m ρ c (Proc.devRef .tc main_v33) = shapeCast S128 (a8 m c) shapeCasts_S128x1_S128 := by
  have e : W5 m ρ c (Proc.devRef .tc main_v33) = shapeCast S128 (W4 m ρ c (Proc.devRef .tc main_arg8)) shapeCasts_S128x1_S128 := by
    show StableHlo.after hostOps2 (W4 m ρ c) (Proc.devRef .tc main_v33) = _
    after_results
    rfl
  rw [e, W4_arg m ρ c main_arg8 (by decide)]

theorem W5_arg7 (c : Dev nD) : W5 m ρ c (Proc.devRef .tc main_arg7) = a7 m c :=
  (show W5 m ρ c (Proc.devRef .tc main_arg7) = W4 m ρ c (Proc.devRef .tc main_arg7) by keeps).trans (W4_arg m ρ c main_arg7 (by decide))

theorem W5_arg9 (c : Dev nD) : W5 m ρ c (Proc.devRef .tc main_arg9) = a9 m c :=
  (show W5 m ρ c (Proc.devRef .tc main_arg9) = W4 m ρ c (Proc.devRef .tc main_arg9) by keeps).trans (W4_arg m ρ c main_arg9 (by decide))

/-- The split edge scores, one per edge, of the node layer's rows gathered at the two ends, as a function of the
    argument arrays. -/
def edgeVecOf (x0 : FVec Ideal S10000x128 .f32) (x1 : Vec Ideal S2x640000 .i32) (x3 x4 : FVec Ideal S128x128 .f32)
    (x5 : FVec Ideal S128 .f32) (x6 : FVec Ideal S256x128 .f32) (x7 : FVec Ideal S128 .f32) (x8 : FVec Ideal S128x1 .f32)
    (x9 : FVec Ideal S1 .f32) : S640000.Idx → EReal :=
  scal2 (edgeSplit (extractStridedSlice S128x128 ![0, 0] x6 slices_S256x128_S128x128_0_0)
        (extractStridedSlice S128x128 ![128, 0] x6 slices_S256x128_S128x128_128_0)
        (fun j => x7 (ix1 j)) z0 (fun j => shapeCast S128 x8 shapeCasts_S128x1_S128 (ix1 j)) (x9 (ix1 0)))
    (Host.gather Cert.ReferenceIdeal.gather_S10000x128_S640000x1_S640000x128_1_0_n_n_0_1_1128
      (nodeOf x0 x1 x3 x4 x5) (val_main_v38 (F := Ideal) x1))
    (Host.gather Cert.ReferenceIdeal.gather_S10000x128_S640000x1_S640000x128_1_0_n_n_0_1_1128
      (nodeOf x0 x1 x3 x4 x5) (val_main_v45 (F := Ideal) x1))

/-- The same at the launch memory. -/
abbrev edgeVec (c : Dev nD) : S640000.Idx → EReal :=
  edgeVecOf (a0 m c) (a1 m c) (a3 m c) (a4 m c) (a5 m c) (a6 m c) (a7 m c) (a8 m c) (a9 m c)

/-- Region 2 leaves the split edge scores. -/
theorem W6_v34 (c : Dev nD) : W6 m ρ c (Proc.devRef .tc main_v34) = edgeVec m c := by
  refine (W6_arr m ρ c 7).trans ((Region2.final (V5 m ρ) c).trans ?_)
  show scal2 (edgeSplit (W5 m ρ c (Proc.devRef .tc main_v31)) (W5 m ρ c (Proc.devRef .tc main_v32))
        (fun j => W5 m ρ c (Proc.devRef .tc main_arg7) (ix1 j)) z0 (fun j => W5 m ρ c (Proc.devRef .tc main_v33) (ix1 j))
        (W5 m ρ c (Proc.devRef .tc main_arg9) (ix1 0)))
      (W5 m ρ c (Proc.devRef .tc main_v23)) (W5 m ρ c (Proc.devRef .tc main_v30)) = _
  rw [W5_v23, W5_v30, W5_v31, W5_v32, W5_v33, W5_arg7, W5_arg9]
  rfl

/-! ## Stretch 3: the two results -/

/-- The first result: the edge scores viewed as a column. -/
theorem result0 (c : Dev nD) :
    W7 m ρ c (Proc.devRef .tc main_v35) = shapeCast S640000x1 (edgeVec m c) shapeCasts_S640000_S640000x1 := by
  have e : W7 m ρ c (Proc.devRef .tc main_v35)
      = shapeCast S640000x1 (W6 m ρ c (Proc.devRef .tc main_v34)) shapeCasts_S640000_S640000x1 := by
    show StableHlo.after hostOps3 (W6 m ρ c) (Proc.devRef .tc main_v35) = _
    after_results
    rfl
  rw [e, W6_v34]

theorem W6_v15 (c : Dev nD) :
    W6 m ρ c (Proc.devRef .tc main_v15) = nodeOf (a0 m c) (a1 m c) (a3 m c) (a4 m c) (a5 m c) :=
  (W6_of_ne m ρ c main_v15 (by decide)).trans
    ((show W5 m ρ c (Proc.devRef .tc main_v15) = W4 m ρ c (Proc.devRef .tc main_v15) by keeps).trans (W4_v15 m ρ c))

theorem W6_arg (c : Dev nD) : ∀ b ∈ [main_arg2, main_arg10, main_arg11],
    W6 m ρ c (Proc.devRef .tc b) = m ((c : Thread nD τ).loc b) := by
  intro b hb
  have hb' : b ∈ [main_arg2, main_arg6, main_arg7, main_arg8, main_arg9, main_arg10, main_arg11] := by
    simp only [List.mem_cons, List.mem_nil_iff, or_false] at hb ⊢
    rcases hb with rfl | rfl | rfl <;> simp
  refine Eq.trans ?_ (W4_arg m ρ c b hb')
  simp only [List.mem_cons, List.mem_nil_iff, or_false] at hb
  rcases hb with rfl | rfl | rfl <;>
    exact (W6_of_ne m ρ c _ (by decide)).trans (by keeps)

/-- The second result: the pooling and classification head applied to the node layer. -/
theorem result1 (c : Dev nD) :
    W7 m ρ c (Proc.devRef .tc main_v51) = clsOf (nodeOf (a0 m c) (a1 m c) (a3 m c) (a4 m c) (a5 m c)) (a2 m c) (a10 m c) (a11 m c) := by
  have e : W7 m ρ c (Proc.devRef .tc main_v51)
      = clsOf (W6 m ρ c (Proc.devRef .tc main_v15)) (W6 m ρ c (Proc.devRef .tc main_arg2)) (W6 m ρ c (Proc.devRef .tc main_arg10))
          (W6 m ρ c (Proc.devRef .tc main_arg11)) := by
    show StableHlo.after hostOps3 (W6 m ρ c) (Proc.devRef .tc main_v51) = _
    after_results
    rfl
  rw [e, W6_v15, W6_arg m ρ c main_arg2 (by decide), W6_arg m ρ c main_arg10 (by decide), W6_arg m ρ c main_arg11 (by decide)]

end Cert.KernelIdeal.KValue

end
-- ==== Proof.Bridge.lean ====
/-
  The two programs compute the same two arrays.

  First result. The reference scores an edge by a two-layer perceptron of its two end nodes' rows set side by
  side: `(∑ k, max ((∑ j, [s | d] j · W₁[j, k]) + b₁ k) 0 · W₂[k, 0]) + b₂`. The kernel multiplies the two rows by the
  upper and the lower half of `W₁` separately and reads `W₂` as a vector:
  `(∑ k, max ((∑ j, s j · W₁[j, k]) + (∑ j, d j · W₁[128 + j, k]) + b₁ k) 0 · W₂[k, 0]) + b₂`. A sum over the 256 entries
  of the joined row is the sum over its first 128 plus the sum over its last 128 (LibEdgeRows.lean `sum_join`), so the
  two scores are one number for every edge — whatever the entries are, infinities included. The rows `s`, `d` are the
  same on both sides: the node layer's rows gathered at the edge's two ends.

  Second result. Both programs apply one and the same pooling and classification head to the node layer.
-/
import proofs.«159066_j47141561041135_2_alg».proof.Proof.KernelValue
import proofs.«159066_j47141561041135_2_alg».proof.Proof.RefValue

noncomputable section

namespace Cert.Bridge

open Idealize.ShloMosaic Idealize.ShloMosaic.ValueIdx Cert.RowLayers Cert.EdgeNet
open Cert.ReferenceIdeal.Read (val_main_v56 val_main_v60 val_main_v38 val_main_v45)
open Cert.ReferenceIdeal.RefValue (nodeOf clsOf edgeOf v56_closed v60_eq zR)
open Cert.KernelIdeal.KValue (edgeVecOf)

/-- An `[a]` vector viewed as a column `[a, 1]`, read at `(p, u)`. -/
theorem column_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` viewed as a vector `[a]`, read at `k`. -/
theorem uncolumn_apply {α : Type} {a : ℕ} (x : (⟨2, ![a, 1]⟩ : Shape).Idx → α) (h : (⟨2, ![a, 1]⟩ : Shape).ShapeCasts ⟨1, ![a]⟩)
    (k : Fin a) : shapeCast ⟨1, ![a]⟩ x h (ix1 k) = x (ix2 k (0 : Fin 1)) :=
  shapeCast_apply x h _ _ (by
    rw [Shape.rowMajor_val_two, Shape.rowMajor_val_one]
    show k.val * 1 + 0 = k.val
    omega)

/-- The first result: the reference's edge scores are the kernel's split scores viewed as a column. -/
theorem first_result (x0 : FVec Ideal Cert.KernelIdeal.S10000x128 .f32) (x1 : Vec Ideal Cert.KernelIdeal.S2x640000 .i32)
    (x3 x4 : FVec Ideal Cert.KernelIdeal.S128x128 .f32) (x5 : FVec Ideal Cert.KernelIdeal.S128 .f32)
    (x6 : FVec Ideal Cert.KernelIdeal.S256x128 .f32) (x7 : FVec Ideal Cert.KernelIdeal.S128 .f32)
    (x8 : FVec Ideal Cert.KernelIdeal.S128x1 .f32) (x9 : FVec Ideal Cert.KernelIdeal.S1 .f32) :
    val_main_v56 (F := Ideal) x0 x1 x3 x4 x5 x6 x7 x8 x9
      = shapeCast Cert.KernelIdeal.S640000x1 (edgeVecOf x0 x1 x3 x4 x5 x6 x7 x8 x9) Cert.KernelIdeal.Gen.shapeCasts_S640000_S640000x1 := by
  rw [v56_closed]
  funext i
  obtain ⟨p, u, rfl⟩ : ∃ (p : Fin 640000) (u : Fin 1), i = ix2 p u := ⟨i 0, i 1, eq_ix2 i⟩
  rw [column_apply]
  unfold edgeOf edgeVecOf
  show edgeJoined (rfl : 256 = 128 + 128) x6 (fun j => x7 (ix1 j)) zR x8 (fun j => x9 (ix1 j)) _ _ u = edgeSplit _ _ _ _ _ _ _ _
  refine (edgeJoined_eq_split (rfl : 256 = 128 + 128) x6
    (extractStridedSlice Cert.KernelIdeal.S128x128 ![0, 0] x6 Cert.KernelIdeal.Gen.slices_S256x128_S128x128_0_0)
    (extractStridedSlice Cert.KernelIdeal.S128x128 ![128, 0] x6 Cert.KernelIdeal.Gen.slices_S256x128_S128x128_128_0)
    (fun k j => ?_) (fun k j => ?_) (fun j => x7 (ix1 j)) zR x8 (fun j => x9 (ix1 j))
    (fun j => shapeCast Cert.KernelIdeal.S128 x8 Cert.KernelIdeal.Gen.shapeCasts_S128x1_S128 (ix1 j)) (fun k => uncolumn_apply x8 _ k) _ _ u).trans ?_
  · refine (slice2_axis0_eq 0 x6 Cert.KernelIdeal.Gen.slices_S256x128_S128x128_0_0 k j).trans ?_
    exact congrArg (fun r => x6 (ix2 r j)) (Fin.ext (Nat.zero_add k.val))
  · exact slice2_axis0_eq 128 x6 Cert.KernelIdeal.Gen.slices_S256x128_S128x128_128_0 k j
  · obtain rfl : u = 0 := Subsingleton.elim _ _
    rfl

/-- The second result: one head applied to one node layer. -/
theorem second_result (x0 : FVec Ideal Cert.KernelIdeal.S10000x128 .f32) (x1 : Vec Ideal Cert.KernelIdeal.S2x640000 .i32)
    (x2 : Vec Ideal Cert.KernelIdeal.S10000 .i32) (x3 x4 : FVec Ideal Cert.KernelIdeal.S128x128 .f32)
    (x5 : FVec Ideal Cert.KernelIdeal.S128 .f32) (x10 : FVec Ideal Cert.KernelIdeal.S128x10 .f32) (x11 : FVec Ideal Cert.KernelIdeal.S10 .f32) :
    val_main_v60 (F := Ideal) x0 x1 x2 x3 x4 x5 x10 x11 = clsOf (nodeOf x0 x1 x3 x4 x5) x2 x10 x11 :=
  v60_eq x0 x1 x2 x3 x4 x5 x10 x11

end Cert.Bridge

end
-- ==== Proof.lean ====
/-
  The certificate of a graph network — a message-passing layer, an edge scorer and a per-graph classifier — whose
  kernel runs three grid regions among four stretches of array operations, against its plain reference.

  Over the extended reals both programs compute, from node features `x` and an edge list,
  `z = max (segment_sum ((x · W_in)[src], dst) + x · W_self + b) 0`, then for every edge the score
  `(∑ k, max ((∑ j, [z[src] | z[dst]] j · W₁[j, k]) + b₁ k) 0 · W₂[k, 0]) + b₂` and, per graph, the pooled and classified
  rows of `z`. The kernel evaluates the dense layers row block by row block in its three regions, and splits the
  scorer's first layer into the two halves of `W₁`; a sum over a joined row is the sum over its two parts, so
  nothing is asked of the entries and the precondition is never opened.

  The modules: LibEdgeRows.lean (the row functions and the law), DeviceRows.lean (the three bodies on a block),
  Region0/1/2.lean (a region's blocks tile its output), KernelRun.lean and KernelValue.lean (the kernel's run and
  what it leaves), RefValue.lean (the reference layer by layer), Bridge.lean (the two sides are one function).
  The frames of the two kernel programs are the frame certificates over the program's segments; the reference's
  frame is its run with the results dropped; the idealization rewrote nothing.
-/
import proofs.«159066_j47141561041135_2_alg».proof.Defs
import proofs.«159066_j47141561041135_2_alg».proof.Proof.Gen.Kernel
import proofs.«159066_j47141561041135_2_alg».proof.Proof.Gen.Kernel.Skeleton
import proofs.«159066_j47141561041135_2_alg».proof.Proof.KernelLaunchP
import proofs.«159066_j47141561041135_2_alg».proof.Proof.Gen.Kernel.Points
import proofs.«159066_j47141561041135_2_alg».proof.Proof.KernelFrameP
import proofs.«159066_j47141561041135_2_alg».proof.Proof.Gen.KernelIdeal
import proofs.«159066_j47141561041135_2_alg».proof.Proof.Gen.KernelIdeal.Skeleton
import proofs.«159066_j47141561041135_2_alg».proof.Proof.KernelIdealLaunchP
import proofs.«159066_j47141561041135_2_alg».proof.Proof.Gen.KernelIdeal.Points
import proofs.«159066_j47141561041135_2_alg».proof.Proof.KernelIdealFrameP
import proofs.«159066_j47141561041135_2_alg».proof.Proof.Gen.ReferenceIdeal
import proofs.«159066_j47141561041135_2_alg».proof.Proof.Gen.Pre_finite_inputs
import proofs.«159066_j47141561041135_2_alg».proof.Proof.Gen.ReferenceIdeal.Run
import proofs.«159066_j47141561041135_2_alg».proof.Proof.Gen.ReferenceIdeal.Read
import proofs.«159066_j47141561041135_2_alg».proof.Proof.KernelRun
import proofs.«159066_j47141561041135_2_alg».proof.Proof.KernelValue
import proofs.«159066_j47141561041135_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the kernel's two results: the edge scores as a column, and the classified pooled rows. -/
theorem algebraic : Cert.algebraic_KernelIdeal_ReferenceIdeal := by
  intro m ρ m' ρ' _ hagree
  refine ⟨fun c => Cert.KernelIdeal.GenP.W7 m ρ c (Proc.devRef .tc Cert.KernelIdeal.main_v35),
    fun c => Cert.KernelIdeal.GenP.W7 m ρ c (Proc.devRef .tc Cert.KernelIdeal.main_v51),
    Cert.KernelIdeal.Results.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v56_eq, (hagree c).1, (hagree c).2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1]
    exact (Cert.Bridge.first_result _ _ _ _ _ _ _ _ _).trans (Cert.KernelIdeal.KValue.result0 m ρ c).symm
  · rw [(hagree c).1, (hagree c).2.1, (hagree c).2.2.1, (hagree c).2.2.2.1, (hagree c).2.2.2.2.1, (hagree c).2.2.2.2.2.1,
      (hagree c).2.2.2.2.2.2.2.2.2.2.1, (hagree c).2.2.2.2.2.2.2.2.2.2.2]
    exact (Cert.ReferenceIdeal.Read.val_main_v60_eq _ _ _ _ _ _ _ _).trans
      ((Cert.Bridge.second_result _ _ _ _ _ _ _ _).trans (Cert.KernelIdeal.KValue.result1 m ρ c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
